-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x64 : Shape := ⟨2, ![1024, 64]⟩
abbrev S64 : Shape := ⟨1, ![64]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S1024x64 .f32) (main_arg8 : FVec F S64 .f32) (main_v33 : IVec S_ 1) : IVec S_ 1 :=
  let main_v34 : FVec F S1024x64 .f32 := Host.absf main_arg7
  let main_cst_12 : FVec F S_ .f32 := constant S_ .f32 0x7F800000#32
  let main_v35 : FVec F S1024x64 .f32 := broadcastInDim S1024x64 ![] bcast_S_S1024x64 main_cst_12
  let main_v36 : IVec S1024x64 1 := cmpf .olt main_v34 main_v35
  let main_c_13 : IVec S_ 1 := constantI S_ 1 1#1
  let main_v37 : IVec S_ 1 := (fun x v => Host.reduce IntOp.andi x v reducesTo_S1024x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S64 .f32) (main_arg5 : FVec F S1024x64 .f32) (main_arg6 : FVec F S64 .f32) (main_arg7 : FVec F S1024x64 .f32) (main_arg8 : FVec F S64 .f32) (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S1024x64 .f32 := Host.absf main_arg5
  let main_cst_8 : FVec F S_ .f32 := constant S_ .f32 0x7F800000#32
  let main_v25 : FVec F S1024x64 .f32 := broadcastInDim S1024x64 ![] bcast_S_S1024x64 main_cst_8
  let main_v26 : IVec S1024x64 1 := cmpf .olt main_v24 main_v25
  let main_c_9 : IVec S_ 1 := constantI S_ 1 1#1
  let main_v27 : IVec S_ 1 := (fun x v => Host.reduce IntOp.andi x v reducesTo_S1024x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S8x2048x1024 .f32) (main_arg1 : FVec F S8x2048x1024 .f32) (main_arg2 : FVec F S8x2048x1024 .f32) (main_arg3 : FVec F S1024x64 .f32) (main_arg4 : FVec F S64 .f32) (main_arg5 : FVec F S1024x64 .f32) (main_arg6 : FVec F S64 .f32) (main_arg7 : FVec F S1024x64 .f32) (main_arg8 : FVec F S64 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S8x2048x1024 .f32 := Host.absf main_arg2
  let main_cst_2 : FVec F S_ .f32 := constant S_ .f32 0x7F800000#32
  let main_v10 : FVec F S8x2048x1024 .f32 := broadcastInDim S8x2048x1024 ![] bcast_S_S8x2048x1024 main_cst_2
  let main_v11 : IVec S8x2048x1024 1 := cmpf .olt main_v9 main_v10
  let main_c_3 : IVec S_ 1 := constantI S_ 1 1#1
  let main_v12 : IVec S_ 1 := (fun x v => Host.reduce IntOp.andi x v reducesTo_S8x2048x1024_S_d0_1_2 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_arg4 main_arg5 main_arg6 main_arg7 main_arg8 main_v13 main_v16
-- ==== Kernel.lean ====
abbrev S8x2048x1024 : Shape := ⟨3, ![8, 2048, 1024]⟩
abbrev S1024x64 : Shape := ⟨2, ![1024, 64]⟩
abbrev S64 : Shape := ⟨1, ![64]⟩
abbrev S16384x1024 : Shape := ⟨2, ![16384, 1024]⟩
abbrev S1x64 : Shape := ⟨2, ![1, 64]⟩
abbrev S16384x64 : Shape := ⟨2, ![16384, 64]⟩
abbrev S1024x1024 : Shape := ⟨2, ![1024, 1024]⟩
abbrev S8x2048x64 : Shape := ⟨3, ![8, 2048, 64]⟩
abbrev S1x512x64 : Shape := ⟨3, ![1, 512, 64]⟩
abbrev S1x2048x64 : Shape := ⟨3, ![1, 2048, 64]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 22
  | .vmem => 26
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S1024x64, .f32⟩
  | .hbm, ⟨4, _⟩ => ⟨S64, .f32⟩
  | .hbm, ⟨5, _⟩ => ⟨S1024x64, .f32⟩
  | .hbm, ⟨6, _⟩ => ⟨S64, .f32⟩
  | .hbm, ⟨7, _⟩ => ⟨S1024x64, .f32⟩
  | .hbm, ⟨8, _⟩ => ⟨S64, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S16384x64, .bf16⟩
  | .hbm, ⟨16, _⟩ => ⟨S16384x64, .bf16⟩
  | .hbm, ⟨17, _⟩ => ⟨S16384x64, .bf16⟩
  | .hbm, ⟨18, _⟩ => ⟨S8x2048x64, .bf16⟩
  | .hbm, ⟨19, _⟩ => ⟨S8x2048x64, .bf16⟩
  | .hbm, ⟨20, _⟩ => ⟨S8x2048x64, .bf16⟩
  | .hbm, ⟨21, _⟩ => ⟨S8x2048x64, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x64, .f32⟩
  | .local _ .vmem, ⟨7, _⟩ => ⟨S1x64, .f32⟩
  | .local _ .vmem, ⟨8, _⟩ => ⟨S1024x64, .f32⟩
  | .local _ .vmem, ⟨9, _⟩ => ⟨S1x64, .f32⟩
  | .local _ .vmem, ⟨10, _⟩ => ⟨S1024x64, .f32⟩
  | .local _ .vmem, ⟨11, _⟩ => ⟨S1x64, .f32⟩
  | .local _ .vmem, ⟨12, _⟩ => ⟨S1024x64, .bf16⟩
  | .local _ .vmem, ⟨13, _⟩ => ⟨S1024x64, .bf16⟩
  | .local _ .vmem, ⟨14, _⟩ => ⟨S1024x64, .bf16⟩
  | .local _ .vmem, ⟨15, _⟩ => ⟨S1024x64, .bf16⟩
  | .local _ .vmem, ⟨16, _⟩ => ⟨S1024x64, .bf16⟩
  | .local _ .vmem, ⟨17, _⟩ => ⟨S1024x64, .bf16⟩
  | .local _ .vmem, ⟨18, _⟩ => ⟨S1x512x64, .bf16⟩
  | .local _ .vmem, ⟨19, _⟩ => ⟨S1x512x64, .bf16⟩
  | .local _ .vmem, ⟨20, _⟩ => ⟨S1x2048x64, .bf16⟩
  | .local _ .vmem, ⟨21, _⟩ => ⟨S1x2048x64, .bf16⟩
  | .local _ .vmem, ⟨22, _⟩ => ⟨S1x2048x64, .bf16⟩
  | .local _ .vmem, ⟨23, _⟩ => ⟨S1x2048x64, .bf16⟩
  | .local _ .vmem, ⟨24, _⟩ => ⟨S1x512x64, .f32⟩
  | .local _ .vmem, ⟨25, _⟩ => ⟨S1x512x64, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S8x2048x1024_S16384x1024 : S8x2048x1024.ShapeCasts S16384x1024
  shapeCasts_S64_S1x64 : S64.ShapeCasts S1x64
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  packedbf16_S1024x64_S1024x64_0_0 : (Rect.unit (s := S1024x64) ![0, 0] S1024x64.size inb_S1024x64_S1024x64_0_0).PackedRows (EltTy.packing .bf16)
  shapeCasts_S16384x64_S8x2048x64 : S16384x64.ShapeCasts S8x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  shapeCasts_S512x64_S1x512x64 : S512x64.ShapeCasts S1x512x64
  dot_S1024x1024_S1024x64_S1024x64_1_0_0_1_n_n_wf : DotDims.WF S1024x1024 S1024x64 S1024x64 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x1024.size a
  hwx0_1 : ∀ i : grid0.Coords, EltTy.bits .f32 = 32 ∨ (Rect.block (s := S16384x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x1024.size a
  hwx0_2 : ∀ i : grid0.Coords, EltTy.bits .f32 = 32 ∨ (Rect.block (s := S16384x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .f32 = 32 ∨ (Rect.block (s := S1024x64) S1024x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S1024x64.size a
  hwx0_5 : ∀ i : grid0.Coords, EltTy.bits .f32 = 32 ∨ (Rect.block (s := S1024x64) S1024x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x64.size a ≤ S1024x64.size a
  hwx0_7 : ∀ i : grid0.Coords, EltTy.bits .f32 = 32 ∨ (Rect.block (s := S1024x64) S1024x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x64.size a ≤ S16384x64.size a
  hwx0_9 : ∀ i : grid0.Coords, EltTy.bits .bf16 = 32 ∨ (Rect.block (s := S16384x64) S1024x64.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x64.size a ≤ S16384x64.size a
  hwx0_10 : ∀ i : grid0.Coords, EltTy.bits .bf16 = 32 ∨ (Rect.block (s := S16384x64) S1024x64.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x64.size a ≤ S16384x64.size a
  hwx0_11 : ∀ i : grid0.Coords, EltTy.bits .bf16 = 32 ∨ (Rect.block (s := S16384x64) S1024x64.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S8x2048x64.size a
  hwx1_0 : ∀ i : grid1.Coords, EltTy.bits .bf16 = 32 ∨ (Rect.block (s := S8x2048x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S8x2048x64.size a
  hwx1_1 : ∀ i : grid1.Coords, EltTy.bits .bf16 = 32 ∨ (Rect.block (s := S8x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S8x2048x64.size a
  hwx1_2 : ∀ i : grid1.Coords, EltTy.bits .bf16 = 32 ∨ (Rect.block (s := S8x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S8x2048x64.size a
  hwx1_3 : ∀ i : grid1.Coords, EltTy.bits .f32 = 32 ∨ (Rect.block (s := S8x2048x64) S1x512x64.size (cc1_transform_3 i) (hinb1_3 i)).WholeWords (EltTy.packing .f32)

variable [Facts₀]

def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6_0) S1024x64.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_1) S1024x64.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v6_2) S1024x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v7) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x2048x1024 : Shape := ⟨3, ![8, 2048, 1024]⟩
abbrev S1024x64 : Shape := ⟨2, ![1024, 64]⟩
abbrev S64 : Shape := ⟨1, ![64]⟩
abbrev S8x2048x64 : Shape := ⟨3, ![8, 2048, 64]⟩
abbrev S1x1x64 : Shape := ⟨3, ![1, 1, 64]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 41
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S1024x64, .f32⟩
  | .hbm, ⟨4, _⟩ => ⟨S64, .f32⟩
  | .hbm, ⟨5, _⟩ => ⟨S1024x64, .f32⟩
  | .hbm, ⟨6, _⟩ => ⟨S64, .f32⟩
  | .hbm, ⟨7, _⟩ => ⟨S1024x64, .f32⟩
  | .hbm, ⟨8, _⟩ => ⟨S64, .f32⟩
  | .hbm, ⟨9, _⟩ => ⟨S8x2048x64, .f32⟩
  | .hbm, ⟨10, _⟩ => ⟨S1x1x64, .f32⟩
  | .hbm, ⟨11, _⟩ => ⟨S8x2048x64, .f32⟩
  | .hbm, ⟨12, _⟩ => ⟨S8x2048x64, .f32⟩
  | .hbm, ⟨13, _⟩ => ⟨S8x2048x64, .f32⟩
  | .hbm, ⟨14, _⟩ => ⟨S1x1x64, .f32⟩
  | .hbm, ⟨15, _⟩ => ⟨S8x2048x64, .f32⟩
  | .hbm, ⟨16, _⟩ => ⟨S8x2048x64, .f32⟩
  | .hbm, ⟨17, _⟩ => ⟨S8x2048x64, .f32⟩
  | .hbm, ⟨18, _⟩ => ⟨S1x1x64, .f32⟩
  | .hbm, ⟨19, _⟩ => ⟨S8x2048x64, .f32⟩
  | .hbm, ⟨20, _⟩ => ⟨S8x2048x64, .f32⟩
  | .hbm, ⟨21, _⟩ => ⟨S8x2048x2048, .f32⟩
  | .hbm, ⟨22, _⟩ => ⟨S_, .f32⟩
  | .hbm, ⟨23, _⟩ => ⟨S_, .f32⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S8x2048, .f32⟩
  | .hbm, ⟨28, _⟩ => ⟨S_, .f32⟩
  | .hbm, ⟨29, _⟩ => ⟨S8x2048, .f32⟩
  | .hbm, ⟨30, _⟩ => ⟨S8x2048, .f32⟩
  | .hbm, ⟨31, _⟩ => ⟨S8x2048x1, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S_, .f32⟩
  | .hbm, ⟨36, _⟩ => ⟨S8x2048, .f32⟩
  | .hbm, ⟨37, _⟩ => ⟨S8x2048x1, .f32⟩
  | .hbm, ⟨38, _⟩ => ⟨S8x2048x2048, .f32⟩
  | .hbm, ⟨39, _⟩ => ⟨S8x2048x2048, .f32⟩
  | .hbm, ⟨40, _⟩ => ⟨S8x2048x64, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S8x2048x64_0_1_2 : S1x1x64.BroadcastsInDim S8x2048x64 (![0, 1, 2] : Fin 3 → Fin S8x2048x64.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x64_S8x2048x64_2_0_01_1_n_n_wf : DotDims.WF S8x2048x1024 S1024x64 S8x2048x64 [2] [0] [0, 1] [1] [] []
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x1024_S1024x64_S8x2048x64_2_0_01_1_n_n : DotDims S8x2048x1024 S1024x64 S8x2048x64 where
  lhsContracting := [2]
  rhsContracting := [0]
  lhsNonContracting := [0, 1]
  rhsNonContracting := [1]
  lhsBatch := []
  rhsBatch := []
  wf := dot_S8x2048x1024_S1024x64_S8x2048x64_2_0_01_1_n_n_wf
def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.Spec.lean ====
/-
  One attention head over a batch of 8 sequences of 2048 positions, as functions on the extended reals.

  The three projections are `x · W + β`: at batch `b`, position `s`, head coordinate `h` the sum over the 1024
  embedding coordinates `e` of `x(b,s,e) · W(e,h)`, plus `β(h)`. The raw score of query position `s` against key position
  `t` is the inner product over the 64 head coordinates. A row of scores `z` is turned into positive weights
  `exp(z t − max z)`; the output is the weighted sum of the value rows divided by the weights' total.

  The two programs differ in two places only. One multiplies the raw score by the float `0.125`, the other divides it by
  the square root of the float `64`. One divides the weighted sum by the total (`sumThenNormalise`), the other divides
  every weight by the total before summing (`normaliseThenSum`).
-/
import Idealize.ShloMosaic.PureOps.Ideal
import Idealize.ShloMosaic.Lib.ValueIdx

noncomputable section

open scoped BigOperators

namespace Cert.Attn

open Idealize.ShloMosaic Idealize.ShloMosaic.ValueIdx

/-- The shape of an input sequence batch `[8, 2048, 1024]`. -/
abbrev XS : Shape := ⟨3, ![8, 2048, 1024]⟩
/-- The shape of a projection matrix `[1024, 64]`. -/
abbrev WS : Shape := ⟨2, ![1024, 64]⟩
/-- The shape of a bias `[64]`. -/
abbrev BS : Shape := ⟨1, ![64]⟩
/-- The shape of a projected batch, and of the result, `[8, 2048, 64]`. -/
abbrev HS : Shape := ⟨3, ![8, 2048, 64]⟩

/-- The projection `x · W + β`, entry by entry. -/
def proj (x : XS.Idx → EReal) (w : WS.Idx → EReal) (β : BS.Idx → EReal) : HS.Idx → EReal :=
  fun i => (∑ e : Fin 1024, x (ix3 (i 0) (i 1) e) * w (ix2 e (i 2))) + β (ix1 (i 2))

/-- The shape of a flattened input `[16384, 1024]`: row `b · 2048 + s` is position `s` of batch `b`. -/
abbrev XR : Shape := ⟨2, ![16384, 1024]⟩
/-- The shape of a bias kept as a row `[1, 64]`. -/
abbrev BR : Shape := ⟨2, ![1, 64]⟩
/-- The shape of a flattened projection `[16384, 64]`. -/
abbrev HR : Shape := ⟨2, ![16384, 64]⟩

/-- The projection on flattened rows: entry `(r, h)` is the sum over `e` of `x(r,e) · W(e,h)`, plus the bias row at `h`. -/
def projRows (x : XR.Idx → EReal) (w : WS.Idx → EReal) (β : BR.Idx → EReal) : HR.Idx → EReal :=
  fun j => (∑ e : Fin 1024, x (ix2 (j 0) e) * w (ix2 e (j 1))) + β (ix2 (0 : Fin 1) (j 1))

/-- The raw score of query position `s` against key position `t` in batch `b`: the inner product of the two rows. -/
def qk (q k : HS.Idx → EReal) (b : Fin 8) (s t : Fin 2048) : EReal :=
  ∑ h : Fin 64, q (ix3 b s h) * k (ix3 b t h)

/-- The maximum of a row, as the fold of `max` from the bottom element. -/
def rowMax {n : ℕ} (z : Fin n → EReal) : EReal := (Finset.univ : Finset (Fin n)).fold max (⊥ : EReal) z

/-- The weighted sum of `v` under the weights `exp(z t − max z)`, divided by the weights' total. -/
def sumThenNormalise {n : ℕ} (z v : Fin n → EReal) : EReal :=
  Ideal.div (∑ t, Ideal.exp (z t - rowMax z) * v t) (∑ t, Ideal.exp (z t - rowMax z))

/-- The sum of `v` under the weights `exp(z t − max z)` each divided by the weights' total. -/
def normaliseThenSum {n : ℕ} (z v : Fin n → EReal) : EReal :=
  ∑ t, Ideal.div (Ideal.exp (z t - rowMax z)) (∑ u, Ideal.exp (z u - rowMax z)) * v t

/-- The head's output with the score scaled by the float `0.125` and the total divided out after the sum. -/
def scaledSumFirst (q k v : HS.Idx → EReal) : HS.Idx → EReal := fun i =>
  sumThenNormalise (fun t => qk q k (i 0) (i 1) t * Ideal.ofBits .f32 0x3E000000#32) (fun t => v (ix3 (i 0) t (i 2)))

/-- The head's output with the score divided by the square root of the float `64` and every weight normalised
    before the sum. -/
def dividedWeightsFirst (q k v : HS.Idx → EReal) : HS.Idx → EReal := fun i =>
  normaliseThenSum (fun t => Ideal.div (qk q k (i 0) (i 1) t) (Ideal.sqrt (Ideal.ofBits .f32 0x42800000#32)))
    (fun t => v (ix3 (i 0) t (i 2)))

end Cert.Attn

end
-- ==== Proof.LibPairTile.lean ====
/-
  Layout operations of a kernel that works on a TILE OF PAIRS, read at an index by coordinates.

  A pairwise kernel holds, per grid point, a [a, b] tile indexed by (query row p, key row q), lifts it to
  [a, b, c] by a trailing feature axis, folds the pair axes into one row axis of a·b rows for a matrix product,
  and unfolds and permutes the product [a·b, h] into [h, a, b]. Each lemma reads one such operation at an index
  given by its coordinates and names the operand's index by coordinates; the folded row of the pair (p, q) is
  p·b + q.
-/
import Idealize.ShloMosaic.Lib.Pipeline.Value
import Idealize.ShloMosaic.Lib.ValueIdx
import Idealize.ShloMosaic.Lib.ValueLayout
import Idealize.ShloMosaic.PureOps.Ideal.Laws

noncomputable section

namespace Cert.PairTile

open Idealize.ShloMosaic Idealize.ShloMosaic.ValueIdx

variable {α : Type}

/-- A column [a, 1] broadcast to [a, b] reads, at (p, q), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A tile [a, b] cast to [a, b, 1] reads, at (p, q, u), the tile at (p, q). -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- A tile [a, b, 1] broadcast along a trailing axis to [a, b, c] reads, at (p, q, k), the tile at (p, q, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A vector [c] cast to [1, 1, c] reads, at (u, v, k), the vector at k. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    simp only [hu, hv, Nat.zero_mul, Nat.zero_add, Nat.mul_one, Nat.add_zero])

/-- A row [1, 1, c] broadcast to [a, b, c] reads, at (p, q, k), the row at k. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- The pair axes folded: [a, b, c] cast to [n, c] (n = a·b) reads, at (r, k) with r = p·b + q, the tile at (p, q, k). -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) : shapeCast ⟨2, ![n, c]⟩ x h (ix2 r k) = x (ix3 p q k) :=
  shapeCast_apply x h _ _ (by
    rw [Shape.rowMajor_val_three, Shape.rowMajor_val_two]
    show (p.val * b + q.val) * c + k.val = r.val * c + k.val
    rw [hr])

/-- The pair axes unfolded: [n, c] cast to [a, b, c] (n = a·b) reads, at (p, q, k), the matrix at (r, k), r = p·b + q. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) : shapeCast ⟨3, ![a, b, c]⟩ x h (ix3 p q k) = x (ix2 r k) :=
  shapeCast_apply x h _ _ (by
    rw [Shape.rowMajor_val_three, Shape.rowMajor_val_two]
    show r.val * c + k.val = (p.val * b + q.val) * c + k.val
    rw [hr])

/-- The trailing axis brought to the front: [a, b, c] permuted by [2, 0, 1] reads, at (k, p, q), the tile at (p, q, k). -/
theorem transpose_201_apply {a b c : ℕ} (x : (⟨3, ![a, b, c]⟩ : Shape).Idx → α)
    (h : (⟨3, ![a, b, c]⟩ : Shape).Transposes [2, 0, 1] ⟨3, ![c, a, b]⟩) (k : Fin c) (p : Fin a) (q : Fin b) :
    transpose ⟨3, ![c, a, b]⟩ [2, 0, 1] x h (ix3 k p q) = x (ix3 p q k) :=
  transpose_apply _ x h _ _ fun d => match d with | ⟨0, _⟩ => rfl | ⟨1, _⟩ => rfl | ⟨2, _⟩ => rfl

/-- Coordinate o of the query rows over the tile: a [1, a, 3] block cast to [a, 3], its column o cut out as [a, 1]
    and broadcast over the key axis, reads at (p, q) the block at (0, p, o). -/
theorem queryCoord_apply {a b n : ℕ} (x : (⟨3, ![1, a, n]⟩ : Shape).Idx → α) (o : ℕ) (ho : o < n)
    (hc : (⟨3, ![1, a, n]⟩ : Shape).ShapeCasts ⟨2, ![a, n]⟩)
    (hs : (⟨2, ![a, n]⟩ : Shape).Slices ![0, o] ⟨2, ![a, 1]⟩)
    (hb : (⟨2, ![a, 1]⟩ : Shape).Broadcasts ⟨2, ![a, b]⟩) (p : Fin a) (q : Fin b) :
    broadcastTo ⟨2, ![a, b]⟩ (extractStridedSlice ⟨2, ![a, 1]⟩ ![0, o] (shapeCast ⟨2, ![a, n]⟩ x hc) hs) hb (ix2 p q)
      = x (ix3 (0 : Fin 1) p ⟨o, ho⟩) :=
  (broadcastTo_a1_ab_apply _ hb p q).trans
    ((slice2_axis1_apply o _ hs p (0 : Fin 1) ⟨o, ho⟩ (Nat.add_zero o).symm).trans (shapeCast_1ab_ab_apply x hc p ⟨o, ho⟩))

/-- Coordinate o of the key rows over the tile: a [1, b, 3] block cast to [b, 3] and transposed to [3, b], its row o
    cut out as [1, b] and broadcast over the query axis, reads at (p, q) the block at (0, q, o). -/
theorem keyCoord_apply {a b n : ℕ} (x : (⟨3, ![1, b, n]⟩ : Shape).Idx → α) (o : ℕ) (ho : o < n)
    (hc : (⟨3, ![1, b, n]⟩ : Shape).ShapeCasts ⟨2, ![b, n]⟩)
    (ht : (⟨2, ![b, n]⟩ : Shape).Transposes [1, 0] ⟨2, ![n, b]⟩)
    (hs : (⟨2, ![n, b]⟩ : Shape).Slices ![o, 0] ⟨2, ![1, b]⟩)
    (hb : (⟨2, ![1, b]⟩ : Shape).Broadcasts ⟨2, ![a, b]⟩) (p : Fin a) (q : Fin b) :
    broadcastTo ⟨2, ![a, b]⟩ (extractStridedSlice ⟨2, ![1, b]⟩ ![o, 0] (transpose ⟨2, ![n, b]⟩ [1, 0] (shapeCast ⟨2, ![b, n]⟩ x hc) ht) hs) hb (ix2 p q)
      = x (ix3 (0 : Fin 1) q ⟨o, ho⟩) :=
  (broadcastTo_1b_ab_apply _ hb p q).trans
    ((slice2_axis0_apply o _ hs (0 : Fin 1) q ⟨o, ho⟩ (Nat.add_zero o).symm).trans
      ((transpose_ix2_apply _ ht ⟨o, ho⟩ q).trans (shapeCast_1ab_ab_apply x hc q ⟨o, ho⟩)))

/-- A tile [a, b] lifted along a trailing feature axis to [a, b, c] reads, at (p, q, k), the tile at (p, q). -/
theorem liftTile_apply {a b c : ℕ} (x : (⟨2, ![a, b]⟩ : Shape).Idx → α)
    (hc : (⟨2, ![a, b]⟩ : Shape).ShapeCasts ⟨3, ![a, b, 1]⟩) (hb : (⟨3, ![a, b, 1]⟩ : Shape).Broadcasts ⟨3, ![a, b, c]⟩)
    (p : Fin a) (q : Fin b) (k : Fin c) :
    broadcastTo ⟨3, ![a, b, c]⟩ (shapeCast ⟨3, ![a, b, 1]⟩ x hc) hb (ix3 p q k) = x (ix2 p q) :=
  (broadcastTo_ab1_abc_apply _ hb p q k).trans (shapeCast_ab_ab1_apply x hc p q 0)

/-- A feature vector [c] lifted over the pair axes to [a, b, c] reads, at (p, q, k), the vector at k. -/
theorem liftVec_apply {a b c : ℕ} (x : (⟨1, ![c]⟩ : Shape).Idx → α)
    (hc : (⟨1, ![c]⟩ : Shape).ShapeCasts ⟨3, ![1, 1, c]⟩) (hb : (⟨3, ![1, 1, c]⟩ : Shape).Broadcasts ⟨3, ![a, b, c]⟩)
    (p : Fin a) (q : Fin b) (k : Fin c) :
    broadcastTo ⟨3, ![a, b, c]⟩ (shapeCast ⟨3, ![1, 1, c]⟩ x hc) hb (ix3 p q k) = x (ix1 k) :=
  (broadcastTo_11c_abc_apply _ hb p q k).trans (shapeCast_c_11c_apply x hc 0 0 k)

/-- A bias vector [c] over the folded rows: cast to [1, c] and broadcast to [n, c], it reads at (r, k) the vector at k. -/
theorem biasRows_apply {n c : ℕ} (x : (⟨1, ![c]⟩ : Shape).Idx → α)
    (hc : (⟨1, ![c]⟩ : Shape).ShapeCasts ⟨2, ![1, c]⟩) (hb : (⟨2, ![1, c]⟩ : Shape).Broadcasts ⟨2, ![n, c]⟩)
    (r : Fin n) (k : Fin c) :
    broadcastTo ⟨2, ![n, c]⟩ (shapeCast ⟨2, ![1, c]⟩ x hc) hb (ix2 r k) = x (ix1 k) :=
  (broadcastTo_1b_ab_apply _ hb r k).trans (shapeCast_a_1a_apply x hc 0 k)

end Cert.PairTile

end
-- ==== Proof.Reshape.lean ====
/-
  Flattening the batch and position axes commutes with the projection.

  Row `b · 2048 + s` of the flattened input is position `s` of batch `b`, and a bias kept as one row reads at column `h`
  the bias at `h`. So the projection computed row by row on the flattened input, unflattened, is the projection computed
  on the batch: entry `(b, s, h)` is the same sum over the embedding coordinates on both sides.
-/
import proofs.«141790_j37898791420154_2_alg».proof.Proof.Spec
import proofs.«141790_j37898791420154_2_alg».proof.Proof.LibPairTile
import Idealize.ShloMosaic.Lib.ValueLayout
import Idealize.ShloMosaic.Lib.Pipeline.Value

noncomputable section

open scoped BigOperators

namespace Cert.Attn

open Idealize.ShloMosaic Idealize.ShloMosaic.ValueIdx

/-- Row `b · 2048 + s` of the `16384` flattened rows. -/
def flatRow (b : Fin 8) (s : Fin 2048) : Fin 16384 := ⟨b.val * 2048 + s.val, by omega⟩

/-- The projection of the flattened input, unflattened, is the projection of the batch. -/
theorem unflatten_projRows (x : XS.Idx → EReal) (w : WS.Idx → EReal) (β : BS.Idx → EReal)
    (hx : XS.ShapeCasts XR) (hβ : BS.ShapeCasts BR) (ho : HR.ShapeCasts HS) :
    shapeCast HS (projRows (shapeCast XR x hx) w (shapeCast BR β hβ)) ho = proj x w β := by
  funext i
  obtain ⟨b, s, h, rfl⟩ : ∃ (b : Fin 8) (s : Fin 2048) (h : Fin 64), i = ix3 b s h := ⟨i 0, i 1, i 2, eq_ix3 i⟩
  rw [Cert.PairTile.shapeCast_nc_abc_apply _ ho b s h (flatRow b s) rfl]
  unfold projRows proj
  show (∑ e : Fin 1024, shapeCast XR x hx (ix2 (flatRow b s) e) * w (ix2 e h)) + shapeCast BR β hβ (ix2 (0 : Fin 1) h)
    = (∑ e : Fin 1024, x (ix3 b s e) * w (ix2 e h)) + β (ix1 h)
  rw [shapeCast_a_1a_apply β hβ 0 h]
  congr 1
  refine Finset.sum_congr rfl fun e _ => ?_
  rw [Cert.PairTile.shapeCast_abc_nc_apply x hx b s e (flatRow b s) rfl]

end Cert.Attn

end
-- ==== Proof.KernelValue.lean ====
/-
  The two-stage program's result as one function of its arguments.

  The first stage is entered from the arguments flattened over batch and position (and each bias kept as one row); it
  leaves the three projections row by row. The host unflattens them, and the second stage is entered from the three
  projections of the batch; it leaves the head's output. Flattening commutes with the projection, so the result is the
  head's output of the three projections of the arguments.
-/
import proofs.«141790_j37898791420154_2_alg».proof.Proof.KernelRun
import proofs.«141790_j37898791420154_2_alg».proof.Proof.Reshape
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo Cert.Attn

variable (m : (ℓ : Loc nD τ sig) → Buf (Elt Ideal) ℓ) (ρ : Dev nD → PrngReg)

/-! ## What the first stage is entered from -/

theorem entry_x0 (c : Dev nD) : (V1 m ρ c main_v0 : XR.Idx → EReal) = shapeCast XR (m ((c : Thread nD τ).loc main_arg0)) shapeCasts_S8x2048x1024_S16384x1024 := by
  show StableHlo.after hostOps0 (W0 m ρ c) (Proc.devRef .tc main_v0) = _
  after_results; rfl
theorem entry_x1 (c : Dev nD) : (V1 m ρ c main_v1 : XR.Idx → EReal) = shapeCast XR (m ((c : Thread nD τ).loc main_arg1)) shapeCasts_S8x2048x1024_S16384x1024 := by
  show StableHlo.after hostOps0 (W0 m ρ c) (Proc.devRef .tc main_v1) = _
  after_results; rfl
theorem entry_x2 (c : Dev nD) : (V1 m ρ c main_v2 : XR.Idx → EReal) = shapeCast XR (m ((c : Thread nD τ).loc main_arg2)) shapeCasts_S8x2048x1024_S16384x1024 := by
  show StableHlo.after hostOps0 (W0 m ρ c) (Proc.devRef .tc main_v2) = _
  after_results; rfl
theorem entry_b4 (c : Dev nD) : (V1 m ρ c main_v3 : BR.Idx → EReal) = shapeCast BR (m ((c : Thread nD τ).loc main_arg4)) shapeCasts_S64_S1x64 := by
  show StableHlo.after hostOps0 (W0 m ρ c) (Proc.devRef .tc main_v3) = _
  after_results; rfl
theorem entry_b6 (c : Dev nD) : (V1 m ρ c main_v4 : BR.Idx → EReal) = shapeCast BR (m ((c : Thread nD τ).loc main_arg6)) shapeCasts_S64_S1x64 := by
  show StableHlo.after hostOps0 (W0 m ρ c) (Proc.devRef .tc main_v4) = _
  after_results; rfl
theorem entry_b8 (c : Dev nD) : (V1 m ρ c main_v5 : BR.Idx → EReal) = shapeCast BR (m ((c : Thread nD τ).loc main_arg8)) shapeCasts_S64_S1x64 := by
  show StableHlo.after hostOps0 (W0 m ρ c) (Proc.devRef .tc main_v5) = _
  after_results; rfl
theorem entry_w3 (c : Dev nD) : (V1 m ρ c main_arg3 : WS.Idx → EReal) = (m ((c : Thread nD τ).loc main_arg3)) := by
  show StableHlo.after hostOps0 (W0 m ρ c) (Proc.devRef .tc main_arg3) = _
  after_results
theorem entry_w5 (c : Dev nD) : (V1 m ρ c main_arg5 : WS.Idx → EReal) = (m ((c : Thread nD τ).loc main_arg5)) := by
  show StableHlo.after hostOps0 (W0 m ρ c) (Proc.devRef .tc main_arg5) = _
  after_results
theorem entry_w7 (c : Dev nD) : (V1 m ρ c main_arg7 : WS.Idx → EReal) = (m ((c : Thread nD τ).loc main_arg7)) := by
  show StableHlo.after hostOps0 (W0 m ρ c) (Proc.devRef .tc main_arg7) = _
  after_results

/-! ## What the second stage is entered from -/

theorem entry_q (c : Dev nD) : (V3 m ρ c main_v7 : HS.Idx → EReal)
    = shapeCast HS ((dat0 (V1 m ρ) c).arrAt 9 cfg0.N) shapeCasts_S16384x64_S8x2048x64 := by
  show StableHlo.after hostOps1 (W2 m ρ c) (Proc.devRef .tc main_v7) = _
  after_results
  rw [← W2_arr m ρ c 9]; rfl
theorem entry_k (c : Dev nD) : (V3 m ρ c main_v8 : HS.Idx → EReal)
    = shapeCast HS ((dat0 (V1 m ρ) c).arrAt 10 cfg0.N) shapeCasts_S16384x64_S8x2048x64 := by
  show StableHlo.after hostOps1 (W2 m ρ c) (Proc.devRef .tc main_v8) = _
  after_results
  rw [← W2_arr m ρ c 10]; rfl
theorem entry_v (c : Dev nD) : (V3 m ρ c main_v9 : HS.Idx → EReal)
    = shapeCast HS ((dat0 (V1 m ρ) c).arrAt 11 cfg0.N) shapeCasts_S16384x64_S8x2048x64 := by
  show StableHlo.after hostOps1 (W2 m ρ c) (Proc.devRef .tc main_v9) = _
  after_results
  rw [← W2_arr m ρ c 11]; rfl

/-! ## The result -/

/-- Given what each stage leaves as a function of what it is entered from, the result buffer's final contents are the
    head's output of the three projections of the arguments. -/
theorem result_of (c : Dev nD)
    (h9 : (dat0 (V1 m ρ) c).arrAt 9 cfg0.N = projRows (V1 m ρ c main_v0) (V1 m ρ c main_arg3) (V1 m ρ c main_v3))
    (h10 : (dat0 (V1 m ρ) c).arrAt 10 cfg0.N = projRows (V1 m ρ c main_v1) (V1 m ρ c main_arg5) (V1 m ρ c main_v4))
    (h11 : (dat0 (V1 m ρ) c).arrAt 11 cfg0.N = projRows (V1 m ρ c main_v2) (V1 m ρ c main_arg7) (V1 m ρ c main_v5))
    (h3 : (dat1 (V3 m ρ) c).arrAt 3 cfg1.N = scaledSumFirst (V3 m ρ c main_v7) (V3 m ρ c main_v8) (V3 m ρ c main_v9)) :
    (W4 m ρ c (Proc.devRef .tc main_v10) : HS.Idx → EReal)
      = scaledSumFirst (proj (m ((c : Thread nD τ).loc main_arg0)) (m ((c : Thread nD τ).loc main_arg3)) (m ((c : Thread nD τ).loc main_arg4)))
          (proj (m ((c : Thread nD τ).loc main_arg1)) (m ((c : Thread nD τ).loc main_arg5)) (m ((c : Thread nD τ).loc main_arg6)))
          (proj (m ((c : Thread nD τ).loc main_arg2)) (m ((c : Thread nD τ).loc main_arg7)) (m ((c : Thread nD τ).loc main_arg8))) := by
  have hq : (V3 m ρ c main_v7 : HS.Idx → EReal) = proj (m ((c : Thread nD τ).loc main_arg0)) (m ((c : Thread nD τ).loc main_arg3)) (m ((c : Thread nD τ).loc main_arg4)) := by
    rw [entry_q, h9, entry_x0, entry_w3, entry_b4]; exact unflatten_projRows _ _ _ _ _ _
  have hk : (V3 m ρ c main_v8 : HS.Idx → EReal) = proj (m ((c : Thread nD τ).loc main_arg1)) (m ((c : Thread nD τ).loc main_arg5)) (m ((c : Thread nD τ).loc main_arg6)) := by
    rw [entry_k, h10, entry_x1, entry_w5, entry_b6]; exact unflatten_projRows _ _ _ _ _ _
  have hv : (V3 m ρ c main_v9 : HS.Idx → EReal) = proj (m ((c : Thread nD τ).loc main_arg2)) (m ((c : Thread nD τ).loc main_arg7)) (m ((c : Thread nD τ).loc main_arg8)) := by
    rw [entry_v, h11, entry_x2, entry_w7, entry_b8]; exact unflatten_projRows _ _ _ _ _ _
  have hw : W4 m ρ c (Proc.devRef .tc main_v10) = (dat1 (V3 m ρ) c).arrAt 3 cfg1.N := W4_arr m ρ c 3
  rw [hw, h3, hq, hk, hv]

end Cert.KernelIdeal.Whole

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.ProjValue.lean ====
/-
  The projection region, read as arrays. The region runs over sixteen grid points; at point `t` it stages rows
  `1024·t … 1024·t + 1023` of each of the three flattened inputs `[16384, 1024]`, the three whole weight matrices
  `[1024, 64]` and the three whole bias rows `[1, 64]`, and writes back rows `1024·t … 1024·t + 1023` of the three
  projections `[16384, 64]`. Each store is the input block times the weight matrix, accumulated from zero, plus the bias
  row repeated down the rows; the casts to the narrower float format are the identity on the extended reals. So after the
  region each projection array holds, at `(r, h)`, the sum over the 1024 embedding coordinates `e` of `x(r, e) · W(e, h)`
  plus `β(0, h)`: `Cert.Attn.projRows` of the arrays as the region finds them.

  First one store at an entry (`query_entry`, `key_entry`, `value_entry`); then, per projection, the staged blocks read
  back as rows of their arrays, what a point writes back as a block of `projRows`, the cover of the 16384 rows by the
  sixteen blocks (row `r` lies in the block of point `r / 1024`), and the whole array (`arr9`, `arr10`, `arr11`).
-/
import proofs.«141790_j37898791420154_2_alg».proof.Proof.Gen.KernelIdeal.Frame
import proofs.«141790_j37898791420154_2_alg».proof.Proof.Spec
import proofs.«141790_j37898791420154_2_alg».proof.Proof.LibMatmulNN
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.ProjValue

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## One projection at an entry

Each of the three stores writes, for its own input block `x`, weight matrix `W` and bias row `β`, the rounding (the
identity on the extended reals) of `x · W` accumulated from zero plus `β` repeated down the rows: entry `(r, h)` is the
sum over the 1024 embedding coordinates `e` of `x(r, e) · W(e, h)`, plus `β(0, h)`. -/

theorem query_entry (x : Vec Ideal S1024x1024 .f32) (w : Vec Ideal S1024x64 .f32) (β : Vec Ideal S1x64 .f32)
    (r : Fin 1024) (h : Fin 64) :
    k0_pay2 (F := Ideal) x w β (ix2 r h)
      = (∑ e : Fin 1024, x (ix2 r e) * w (ix2 e h)) + β (ix2 (0 : Fin 1) h) := by
  unfold k0_pay2
  simp only [shapeCast_self]
  show matmul dot_S1024x1024_S1024x64_S1024x64_1_0_0_1_n_n none (truncf .bf16 x bitsLt_bf16_f32)
        (truncf .bf16 w bitsLt_bf16_f32) (constant (F := Ideal) S1024x64 .f32 0x00000000#32) (ix2 r h)
      + broadcastTo S1024x64 β broadcasts_S1x64_S1024x64 (ix2 r h) = _
  refine congrArg₂ (· + ·) ?_ ?_
  · exact Cert.LibMatmulNN.matmul_nn_apply dot_S1024x1024_S1024x64_S1024x64_1_0_0_1_n_n rfl rfl rfl rfl rfl rfl none _ _ r h
  · exact broadcastTo_1b_ab_apply _ _ r h

theorem key_entry (x : Vec Ideal S1024x1024 .f32) (w : Vec Ideal S1024x64 .f32) (β : Vec Ideal S1x64 .f32)
    (r : Fin 1024) (h : Fin 64) :
    k0_pay3 (F := Ideal) x w β (ix2 r h)
      = (∑ e : Fin 1024, x (ix2 r e) * w (ix2 e h)) + β (ix2 (0 : Fin 1) h) := by
  unfold k0_pay3
  simp only [shapeCast_self]
  show matmul dot_S1024x1024_S1024x64_S1024x64_1_0_0_1_n_n none (truncf .bf16 x bitsLt_bf16_f32)
        (truncf .bf16 w bitsLt_bf16_f32) (constant (F := Ideal) S1024x64 .f32 0x00000000#32) (ix2 r h)
      + broadcastTo S1024x64 β broadcasts_S1x64_S1024x64 (ix2 r h) = _
  refine congrArg₂ (· + ·) ?_ ?_
  · exact Cert.LibMatmulNN.matmul_nn_apply dot_S1024x1024_S1024x64_S1024x64_1_0_0_1_n_n rfl rfl rfl rfl rfl rfl none _ _ r h
  · exact broadcastTo_1b_ab_apply _ _ r h

theorem value_entry (x : Vec Ideal S1024x1024 .f32) (w : Vec Ideal S1024x64 .f32) (β : Vec Ideal S1x64 .f32)
    (r : Fin 1024) (h : Fin 64) :
    k0_pay1 (F := Ideal) (k0_pay4 x w) (k0_pay5 β) (ix2 r h)
      = (∑ e : Fin 1024, x (ix2 r e) * w (ix2 e h)) + β (ix2 (0 : Fin 1) h) := by
  unfold k0_pay1 k0_pay4 k0_pay5
  simp only [shapeCast_self]
  show matmul dot_S1024x1024_S1024x64_S1024x64_1_0_0_1_n_n none (truncf .bf16 x bitsLt_bf16_f32)
        (truncf .bf16 w bitsLt_bf16_f32) (constant (F := Ideal) S1024x64 .f32 0x00000000#32) (ix2 r h)
      + broadcastTo S1024x64 β broadcasts_S1x64_S1024x64 (ix2 r h) = _
  refine congrArg₂ (· + ·) ?_ ?_
  · exact Cert.LibMatmulNN.matmul_nn_apply dot_S1024x1024_S1024x64_S1024x64_1_0_0_1_n_n rfl rfl rfl rfl rfl rfl none _ _ r h
  · exact broadcastTo_1b_ab_apply _ _ r h

variable (V : (c : Dev nD) → (b : Ref sig .tc) → Buf (Elt Ideal) ((c : Thread nD τ).loc b))

/-! ## The index maps, decided over the sixteen grid points

The input and output windows move down the rows with the point (block index `(t, 0)`); the weight and bias windows stay at
block `(0, 0)`. -/

theorem zero_offsets : (![0, 0] : Fin 2 → Nat) = fun _ => 0 := funext fun a => by fin_cases a <;> rfl

theorem index_facts_0 : ∀ t : Fin cfg0.N, win0_0.index t (0 : Fin 2) = t.val ∧ win0_0.index t (1 : Fin 2) = 0 :=
  (by decide +kernel : ∀ t : Fin grid0.N, _)
theorem index_facts_1 : ∀ t : Fin cfg0.N, win0_1.index t (0 : Fin 2) = t.val ∧ win0_1.index t (1 : Fin 2) = 0 :=
  (by decide +kernel : ∀ t : Fin grid0.N, _)
theorem index_facts_2 : ∀ t : Fin cfg0.N, win0_2.index t (0 : Fin 2) = t.val ∧ win0_2.index t (1 : Fin 2) = 0 :=
  (by decide +kernel : ∀ t : Fin grid0.N, _)
theorem index_facts_9 : ∀ t : Fin cfg0.N, win0_9.index t (0 : Fin 2) = t.val ∧ win0_9.index t (1 : Fin 2) = 0 :=
  (by decide +kernel : ∀ t : Fin grid0.N, _)
theorem index_facts_10 : ∀ t : Fin cfg0.N, win0_10.index t (0 : Fin 2) = t.val ∧ win0_10.index t (1 : Fin 2) = 0 :=
  (by decide +kernel : ∀ t : Fin grid0.N, _)
theorem index_facts_11 : ∀ t : Fin cfg0.N, win0_11.index t (0 : Fin 2) = t.val ∧ win0_11.index t (1 : Fin 2) = 0 :=
  (by decide +kernel : ∀ t : Fin grid0.N, _)
theorem index_facts_3 : ∀ t : Fin cfg0.N, win0_3.index t (0 : Fin 2) = 0 ∧ win0_3.index t (1 : Fin 2) = 0 :=
  (by decide +kernel : ∀ t : Fin grid0.N, _)
theorem index_facts_4 : ∀ t : Fin cfg0.N, win0_4.index t (0 : Fin 2) = 0 ∧ win0_4.index t (1 : Fin 2) = 0 :=
  (by decide +kernel : ∀ t : Fin grid0.N, _)
theorem index_facts_5 : ∀ t : Fin cfg0.N, win0_5.index t (0 : Fin 2) = 0 ∧ win0_5.index t (1 : Fin 2) = 0 :=
  (by decide +kernel : ∀ t : Fin grid0.N, _)
theorem index_facts_6 : ∀ t : Fin cfg0.N, win0_6.index t (0 : Fin 2) = 0 ∧ win0_6.index t (1 : Fin 2) = 0 :=
  (by decide +kernel : ∀ t : Fin grid0.N, _)
theorem index_facts_7 : ∀ t : Fin cfg0.N, win0_7.index t (0 : Fin 2) = 0 ∧ win0_7.index t (1 : Fin 2) = 0 :=
  (by decide +kernel : ∀ t : Fin grid0.N, _)
theorem index_facts_8 : ∀ t : Fin cfg0.N, win0_8.index t (0 : Fin 2) = 0 ∧ win0_8.index t (1 : Fin 2) = 0 :=
  (by decide +kernel : ∀ t : Fin grid0.N, _)

/-! ## The query rows, block by block, and the whole array

Grid point `t` stages rows `1024·t … 1024·t + 1023` of the query input (all 1024 columns), the whole weight matrix and the
whole bias row, and writes back rows `1024·t … 1024·t + 1023` of the query projection (all 64 columns). -/

/-- Entry `y` of the block written at one point, from the three staged blocks. -/
theorem query_block_entry (x : Vec Ideal S1024x1024 .f32) (w : Vec Ideal S1024x64 .f32) (β : Vec Ideal S1x64 .f32)
    (y : S1024x64.Idx) :
    k0_pay2 (F := Ideal) x w β y = (∑ e : Fin 1024, x (ix2 (y 0) e) * w (ix2 e (y 1))) + β (ix2 (0 : Fin 1) (y 1)) := by
  obtain ⟨r, h, rfl⟩ : ∃ (r : Fin 1024) (h : Fin 64), y = ix2 r h := ⟨y 0, y 1, eq_ix2 y⟩
  exact query_entry x w β r h

/-- The staged input block at point `t` is rows `1024·t …` of the input array. -/
theorem query_input_block (c : Dev nD) (t : Fin cfg0.N) (y : S1024x1024.Idx) (i : S16384x1024.Idx)
    (h0 : (i 0).val = t.val * 1024 + (y 0).val) (h1 : (i 1).val = (y 1).val) :
    iblk0 (F := Ideal) V c 0 t y = V c main_v0 i := by
  show V c main_v0 (((cfg0.win 0).blk t).view.emb y) = V c main_v0 i
  obtain ⟨f0, f1⟩ := index_facts_0 t
  refine congrArg _ (funext fun a => Fin.ext ?_)
  match a with
  | ⟨0, _⟩ => show win0_0.index t (0 : Fin 2) * 1024 + 1 * (y 0).val = (i 0).val; omega
  | ⟨1, _⟩ => show win0_0.index t (1 : Fin 2) * 1024 + 1 * (y 1).val = (i 1).val; omega

/-- The staged weight block is the whole weight matrix, at every point. -/
theorem query_weight_block (c : Dev nD) (t : Fin cfg0.N) (y : S1024x64.Idx) :
    iblk0 (F := Ideal) V c 3 t y = V c main_arg3 y := by
  show V c main_arg3 (((cfg0.win 3).blk t).view.emb y) = V c main_arg3 y
  obtain ⟨f0, f1⟩ := index_facts_3 t
  refine congrArg _ (funext fun a => Fin.ext ?_)
  match a with
  | ⟨0, _⟩ => show win0_3.index t (0 : Fin 2) * 1024 + 1 * (y 0).val = (y 0).val; omega
  | ⟨1, _⟩ => show win0_3.index t (1 : Fin 2) * 64 + 1 * (y 1).val = (y 1).val; omega

/-- The staged bias block is the whole bias row, at every point. -/
theorem query_bias_block (c : Dev nD) (t : Fin cfg0.N) (y : S1x64.Idx) :
    iblk0 (F := Ideal) V c 4 t y = V c main_v3 y := by
  show V c main_v3 (((cfg0.win 4).blk t).view.emb y) = V c main_v3 y
  obtain ⟨f0, f1⟩ := index_facts_4 t
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- What point `t` writes back is block `t` of the projection of the arrays as the region finds them. -/
theorem query_flushed (c : Dev nD) (t : Fin cfg0.N) :
    (dat0 (F := Ideal) V c).flushed 9 t = ((cfg0.win 9).blk t).view.read (Elt Ideal)
      (Cert.Attn.projRows (V c main_v0) (V c main_arg3) (V c main_v3)) := by
  show (cfg0.win 9).cut (grid0.coords t) ((dat0 V c).after 9 t) = _
  rw [after0_9]
  unfold out0_9
  rw [View.canon_unit_zero zero_offsets]
  simp only [View.ld_unit_zero (S := S1024x1024) zero_offsets, View.ld_unit_zero (S := S1024x64) zero_offsets,
    View.ld_unit_zero (S := S1x64) zero_offsets]
  funext j
  refine (query_block_entry (iblk0 V c 0 t) (iblk0 V c 3 t) (iblk0 V c 4 t)
    ((cfg0.win 9).xinj (grid0.coords t) j)).trans ?_
  obtain ⟨f0, f1⟩ := index_facts_9 t
  show _ = Cert.Attn.projRows (V c main_v0) (V c main_arg3) (V c main_v3) (((cfg0.win 9).blk t).view.emb j)
  unfold Cert.Attn.projRows
  have r0 : ((((cfg0.win 9).blk t).view.emb j) 0).val = t.val * 1024 + (j 0).val := by
    show win0_9.index t (0 : Fin 2) * 1024 + 1 * (j 0).val = _; omega
  have r1 : ((((cfg0.win 9).blk t).view.emb j) 1).val = (j 1).val := by
    show win0_9.index t (1 : Fin 2) * 64 + 1 * (j 1).val = _; omega
  refine congrArg₂ (· + ·) (Finset.sum_congr rfl fun e _ => congrArg₂ (· * ·) ?_ ?_) ?_
  · exact query_input_block V c t _ _ r0 rfl
  · refine (query_weight_block V c t _).trans (congrArg _ (funext fun a => Fin.ext ?_))
    match a with
    | ⟨0, _⟩ => rfl
    | ⟨1, _⟩ => exact r1.symm
  · refine (query_bias_block V c t _).trans (congrArg _ (funext fun a => Fin.ext ?_))
    match a with
    | ⟨0, _⟩ => rfl
    | ⟨1, _⟩ => exact r1.symm

/-- A row of the projection is in point `t`'s block iff each coordinate is in the block's range on its axis. -/
theorem query_mem_block (t : Fin cfg0.N) (i : S16384x64.Idx) :
    i ∈ ((cfg0.win 9).blk t).view.set ↔ ∀ a : Fin 2, win0_9.index t a * S1024x64.size a ≤ (i a).val
      ∧ (i a).val < win0_9.index t a * S1024x64.size a + S1024x64.size a := by
  show i ∈ ((View.whole main_v6_0).slice (win0_9.rect t)).set ↔ _
  rw [View.set_slice_whole, Rect.mem_set_unit]
  exact Iff.rfl

/-- Row `r` is written by point `r / 1024`: the sixteen blocks of 1024 rows fill the 16384 rows. -/
theorem query_cover (i : S16384x64.Idx) :
    ∃ t : Fin cfg0.N, (cfg0.win 9).flush t = true ∧ i ∈ ((cfg0.win 9).blk t).view.set := by
  have hi0 : (i 0).val < 16384 := (i 0).isLt
  have hi1 : (i 1).val < 64 := (i 1).isLt
  have ht : (i 0).val / 1024 < grid0.N := by rw [N_0]; omega
  refine ⟨⟨(i 0).val / 1024, ht⟩, flush0_9 _, ?_⟩
  rw [query_mem_block]
  obtain ⟨f0, f1⟩ := index_facts_9 ⟨(i 0).val / 1024, ht⟩
  intro a
  match a with
  | ⟨0, _⟩ =>
    show win0_9.index ⟨(i 0).val / 1024, ht⟩ (0 : Fin 2) * 1024 ≤ (i 0).val
      ∧ (i 0).val < win0_9.index ⟨(i 0).val / 1024, ht⟩ (0 : Fin 2) * 1024 + 1024
    rw [f0]; show (i 0).val / 1024 * 1024 ≤ (i 0).val ∧ (i 0).val < (i 0).val / 1024 * 1024 + 1024; omega
  | ⟨1, _⟩ =>
    show win0_9.index ⟨(i 0).val / 1024, ht⟩ (1 : Fin 2) * 64 ≤ (i 1).val
      ∧ (i 1).val < win0_9.index ⟨(i 0).val / 1024, ht⟩ (1 : Fin 2) * 64 + 64
    rw [f1]; omega

/-- After the region the query projection array holds `x · W + β`, row by row. -/
theorem arr9 (c : Dev nD) : (dat0 (F := Ideal) V c).arrAt 9 cfg0.N
    = Cert.Attn.projRows (V c main_v0) (V c main_arg3) (V c main_v3) :=
  (dat0 (F := Ideal) V c).arrAt_eq_of_cover 9 _ (fun t _ => query_flushed V c t) query_cover

/-! ## The key rows, block by block, and the whole array

Grid point `t` stages rows `1024·t … 1024·t + 1023` of the key input (all 1024 columns), the whole weight matrix and the
whole bias row, and writes back rows `1024·t … 1024·t + 1023` of the key projection (all 64 columns). -/

/-- Entry `y` of the block written at one point, from the three staged blocks. -/
theorem key_block_entry (x : Vec Ideal S1024x1024 .f32) (w : Vec Ideal S1024x64 .f32) (β : Vec Ideal S1x64 .f32)
    (y : S1024x64.Idx) :
    k0_pay3 (F := Ideal) x w β y = (∑ e : Fin 1024, x (ix2 (y 0) e) * w (ix2 e (y 1))) + β (ix2 (0 : Fin 1) (y 1)) := by
  obtain ⟨r, h, rfl⟩ : ∃ (r : Fin 1024) (h : Fin 64), y = ix2 r h := ⟨y 0, y 1, eq_ix2 y⟩
  exact key_entry x w β r h

/-- The staged input block at point `t` is rows `1024·t …` of the input array. -/
theorem key_input_block (c : Dev nD) (t : Fin cfg0.N) (y : S1024x1024.Idx) (i : S16384x1024.Idx)
    (h0 : (i 0).val = t.val * 1024 + (y 0).val) (h1 : (i 1).val = (y 1).val) :
    iblk0 (F := Ideal) V c 1 t y = V c main_v1 i := by
  show V c main_v1 (((cfg0.win 1).blk t).view.emb y) = V c main_v1 i
  obtain ⟨f0, f1⟩ := index_facts_1 t
  refine congrArg _ (funext fun a => Fin.ext ?_)
  match a with
  | ⟨0, _⟩ => show win0_1.index t (0 : Fin 2) * 1024 + 1 * (y 0).val = (i 0).val; omega
  | ⟨1, _⟩ => show win0_1.index t (1 : Fin 2) * 1024 + 1 * (y 1).val = (i 1).val; omega

/-- The staged weight block is the whole weight matrix, at every point. -/
theorem key_weight_block (c : Dev nD) (t : Fin cfg0.N) (y : S1024x64.Idx) :
    iblk0 (F := Ideal) V c 5 t y = V c main_arg5 y := by
  show V c main_arg5 (((cfg0.win 5).blk t).view.emb y) = V c main_arg5 y
  obtain ⟨f0, f1⟩ := index_facts_5 t
  refine congrArg _ (funext fun a => Fin.ext ?_)
  match a with
  | ⟨0, _⟩ => show win0_5.index t (0 : Fin 2) * 1024 + 1 * (y 0).val = (y 0).val; omega
  | ⟨1, _⟩ => show win0_5.index t (1 : Fin 2) * 64 + 1 * (y 1).val = (y 1).val; omega

/-- The staged bias block is the whole bias row, at every point. -/
theorem key_bias_block (c : Dev nD) (t : Fin cfg0.N) (y : S1x64.Idx) :
    iblk0 (F := Ideal) V c 6 t y = V c main_v4 y := by
  show V c main_v4 (((cfg0.win 6).blk t).view.emb y) = V c main_v4 y
  obtain ⟨f0, f1⟩ := index_facts_6 t
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 64 + 1 * (y 1).val = (y 1).val; omega

/-- What point `t` writes back is block `t` of the projection of the arrays as the region finds them. -/
theorem key_flushed (c : Dev nD) (t : Fin cfg0.N) :
    (dat0 (F := Ideal) V c).flushed 10 t = ((cfg0.win 10).blk t).view.read (Elt Ideal)
      (Cert.Attn.projRows (V c main_v1) (V c main_arg5) (V c main_v4)) := by
  show (cfg0.win 10).cut (grid0.coords t) ((dat0 V c).after 10 t) = _
  rw [after0_10]
  unfold out0_10
  rw [View.canon_unit_zero zero_offsets]
  simp only [View.ld_unit_zero (S := S1024x1024) zero_offsets, View.ld_unit_zero (S := S1024x64) zero_offsets,
    View.ld_unit_zero (S := S1x64) zero_offsets]
  funext j
  refine (key_block_entry (iblk0 V c 1 t) (iblk0 V c 5 t) (iblk0 V c 6 t)
    ((cfg0.win 10).xinj (grid0.coords t) j)).trans ?_
  obtain ⟨f0, f1⟩ := index_facts_10 t
  show _ = Cert.Attn.projRows (V c main_v1) (V c main_arg5) (V c main_v4) (((cfg0.win 10).blk t).view.emb j)
  unfold Cert.Attn.projRows
  have r0 : ((((cfg0.win 10).blk t).view.emb j) 0).val = t.val * 1024 + (j 0).val := by
    show win0_10.index t (0 : Fin 2) * 1024 + 1 * (j 0).val = _; omega
  have r1 : ((((cfg0.win 10).blk t).view.emb j) 1).val = (j 1).val := by
    show win0_10.index t (1 : Fin 2) * 64 + 1 * (j 1).val = _; omega
  refine congrArg₂ (· + ·) (Finset.sum_congr rfl fun e _ => congrArg₂ (· * ·) ?_ ?_) ?_
  · exact key_input_block V c t _ _ r0 rfl
  · refine (key_weight_block V c t _).trans (congrArg _ (funext fun a => Fin.ext ?_))
    match a with
    | ⟨0, _⟩ => rfl
    | ⟨1, _⟩ => exact r1.symm
  · refine (key_bias_block V c t _).trans (congrArg _ (funext fun a => Fin.ext ?_))
    match a with
    | ⟨0, _⟩ => rfl
    | ⟨1, _⟩ => exact r1.symm

/-- A row of the projection is in point `t`'s block iff each coordinate is in the block's range on its axis. -/
theorem key_mem_block (t : Fin cfg0.N) (i : S16384x64.Idx) :
    i ∈ ((cfg0.win 10).blk t).view.set ↔ ∀ a : Fin 2, win0_10.index t a * S1024x64.size a ≤ (i a).val
      ∧ (i a).val < win0_10.index t a * S1024x64.size a + S1024x64.size a := by
  show i ∈ ((View.whole main_v6_1).slice (win0_10.rect t)).set ↔ _
  rw [View.set_slice_whole, Rect.mem_set_unit]
  exact Iff.rfl

/-- Row `r` is written by point `r / 1024`: the sixteen blocks of 1024 rows fill the 16384 rows. -/
theorem key_cover (i : S16384x64.Idx) :
    ∃ t : Fin cfg0.N, (cfg0.win 10).flush t = true ∧ i ∈ ((cfg0.win 10).blk t).view.set := by
  have hi0 : (i 0).val < 16384 := (i 0).isLt
  have hi1 : (i 1).val < 64 := (i 1).isLt
  have ht : (i 0).val / 1024 < grid0.N := by rw [N_0]; omega
  refine ⟨⟨(i 0).val / 1024, ht⟩, flush0_10 _, ?_⟩
  rw [key_mem_block]
  obtain ⟨f0, f1⟩ := index_facts_10 ⟨(i 0).val / 1024, ht⟩
  intro a
  match a with
  | ⟨0, _⟩ =>
    show win0_10.index ⟨(i 0).val / 1024, ht⟩ (0 : Fin 2) * 1024 ≤ (i 0).val
      ∧ (i 0).val < win0_10.index ⟨(i 0).val / 1024, ht⟩ (0 : Fin 2) * 1024 + 1024
    rw [f0]; show (i 0).val / 1024 * 1024 ≤ (i 0).val ∧ (i 0).val < (i 0).val / 1024 * 1024 + 1024; omega
  | ⟨1, _⟩ =>
    show win0_10.index ⟨(i 0).val / 1024, ht⟩ (1 : Fin 2) * 64 ≤ (i 1).val
      ∧ (i 1).val < win0_10.index ⟨(i 0).val / 1024, ht⟩ (1 : Fin 2) * 64 + 64
    rw [f1]; omega

/-- After the region the key projection array holds `x · W + β`, row by row. -/
theorem arr10 (c : Dev nD) : (dat0 (F := Ideal) V c).arrAt 10 cfg0.N
    = Cert.Attn.projRows (V c main_v1) (V c main_arg5) (V c main_v4) :=
  (dat0 (F := Ideal) V c).arrAt_eq_of_cover 10 _ (fun t _ => key_flushed V c t) key_cover

/-! ## The value rows, block by block, and the whole array

Grid point `t` stages rows `1024·t … 1024·t + 1023` of the value input (all 1024 columns), the whole weight matrix and the
whole bias row, and writes back rows `1024·t … 1024·t + 1023` of the value projection (all 64 columns). -/

/-- Entry `y` of the block written at one point, from the three staged blocks. -/
theorem value_block_entry (x : Vec Ideal S1024x1024 .f32) (w : Vec Ideal S1024x64 .f32) (β : Vec Ideal S1x64 .f32)
    (y : S1024x64.Idx) :
    k0_pay1 (F := Ideal) (k0_pay4 x w) (k0_pay5 β) y = (∑ e : Fin 1024, x (ix2 (y 0) e) * w (ix2 e (y 1))) + β (ix2 (0 : Fin 1) (y 1)) := by
  obtain ⟨r, h, rfl⟩ : ∃ (r : Fin 1024) (h : Fin 64), y = ix2 r h := ⟨y 0, y 1, eq_ix2 y⟩
  exact value_entry x w β r h

/-- The staged input block at point `t` is rows `1024·t …` of the input array. -/
theorem value_input_block (c : Dev nD) (t : Fin cfg0.N) (y : S1024x1024.Idx) (i : S16384x1024.Idx)
    (h0 : (i 0).val = t.val * 1024 + (y 0).val) (h1 : (i 1).val = (y 1).val) :
    iblk0 (F := Ideal) V c 2 t y = V c main_v2 i := by
  show V c main_v2 (((cfg0.win 2).blk t).view.emb y) = V c main_v2 i
  obtain ⟨f0, f1⟩ := index_facts_2 t
  refine congrArg _ (funext fun a => Fin.ext ?_)
  match a with
  | ⟨0, _⟩ => show win0_2.index t (0 : Fin 2) * 1024 + 1 * (y 0).val = (i 0).val; omega
  | ⟨1, _⟩ => show win0_2.index t (1 : Fin 2) * 1024 + 1 * (y 1).val = (i 1).val; omega

/-- The staged weight block is the whole weight matrix, at every point. -/
theorem value_weight_block (c : Dev nD) (t : Fin cfg0.N) (y : S1024x64.Idx) :
    iblk0 (F := Ideal) V c 7 t y = V c main_arg7 y := by
  show V c main_arg7 (((cfg0.win 7).blk t).view.emb y) = V c main_arg7 y
  obtain ⟨f0, f1⟩ := index_facts_7 t
  refine congrArg _ (funext fun a => Fin.ext ?_)
  match a with
  | ⟨0, _⟩ => show win0_7.index t (0 : Fin 2) * 1024 + 1 * (y 0).val = (y 0).val; omega
  | ⟨1, _⟩ => show win0_7.index t (1 : Fin 2) * 64 + 1 * (y 1).val = (y 1).val; omega

/-- The staged bias block is the whole bias row, at every point. -/
theorem value_bias_block (c : Dev nD) (t : Fin cfg0.N) (y : S1x64.Idx) :
    iblk0 (F := Ideal) V c 8 t y = V c main_v5 y := by
  show V c main_v5 (((cfg0.win 8).blk t).view.emb y) = V c main_v5 y
  obtain ⟨f0, f1⟩ := index_facts_8 t
  refine congrArg _ (funext fun a => Fin.ext ?_)
  match a with
  | ⟨0, _⟩ => show win0_8.index t (0 : Fin 2) * 1 + 1 * (y 0).val = (y 0).val; omega
  | ⟨1, _⟩ => show win0_8.index t (1 : Fin 2) * 64 + 1 * (y 1).val = (y 1).val; omega

/-- What point `t` writes back is block `t` of the projection of the arrays as the region finds them. -/
theorem value_flushed (c : Dev nD) (t : Fin cfg0.N) :
    (dat0 (F := Ideal) V c).flushed 11 t = ((cfg0.win 11).blk t).view.read (Elt Ideal)
      (Cert.Attn.projRows (V c main_v2) (V c main_arg7) (V c main_v5)) := by
  show (cfg0.win 11).cut (grid0.coords t) ((dat0 V c).after 11 t) = _
  rw [after0_11]
  unfold out0_11
  rw [View.canon_unit_zero zero_offsets]
  simp only [View.ld_unit_zero (S := S1024x1024) zero_offsets, View.ld_unit_zero (S := S1024x64) zero_offsets,
    View.ld_unit_zero (S := S1x64) zero_offsets]
  funext j
  refine (value_block_entry (iblk0 V c 2 t) (iblk0 V c 7 t) (iblk0 V c 8 t)
    ((cfg0.win 11).xinj (grid0.coords t) j)).trans ?_
  obtain ⟨f0, f1⟩ := index_facts_11 t
  show _ = Cert.Attn.projRows (V c main_v2) (V c main_arg7) (V c main_v5) (((cfg0.win 11).blk t).view.emb j)
  unfold Cert.Attn.projRows
  have r0 : ((((cfg0.win 11).blk t).view.emb j) 0).val = t.val * 1024 + (j 0).val := by
    show win0_11.index t (0 : Fin 2) * 1024 + 1 * (j 0).val = _; omega
  have r1 : ((((cfg0.win 11).blk t).view.emb j) 1).val = (j 1).val := by
    show win0_11.index t (1 : Fin 2) * 64 + 1 * (j 1).val = _; omega
  refine congrArg₂ (· + ·) (Finset.sum_congr rfl fun e _ => congrArg₂ (· * ·) ?_ ?_) ?_
  · exact value_input_block V c t _ _ r0 rfl
  · refine (value_weight_block V c t _).trans (congrArg _ (funext fun a => Fin.ext ?_))
    match a with
    | ⟨0, _⟩ => rfl
    | ⟨1, _⟩ => exact r1.symm
  · refine (value_bias_block V c t _).trans (congrArg _ (funext fun a => Fin.ext ?_))
    match a with
    | ⟨0, _⟩ => rfl
    | ⟨1, _⟩ => exact r1.symm

/-- A row of the projection is in point `t`'s block iff each coordinate is in the block's range on its axis. -/
theorem value_mem_block (t : Fin cfg0.N) (i : S16384x64.Idx) :
    i ∈ ((cfg0.win 11).blk t).view.set ↔ ∀ a : Fin 2, win0_11.index t a * S1024x64.size a ≤ (i a).val
      ∧ (i a).val < win0_11.index t a * S1024x64.size a + S1024x64.size a := by
  show i ∈ ((View.whole main_v6_2).slice (win0_11.rect t)).set ↔ _
  rw [View.set_slice_whole, Rect.mem_set_unit]
  exact Iff.rfl

/-- Row `r` is written by point `r / 1024`: the sixteen blocks of 1024 rows fill the 16384 rows. -/
theorem value_cover (i : S16384x64.Idx) :
    ∃ t : Fin cfg0.N, (cfg0.win 11).flush t = true ∧ i ∈ ((cfg0.win 11).blk t).view.set := by
  have hi0 : (i 0).val < 16384 := (i 0).isLt
  have hi1 : (i 1).val < 64 := (i 1).isLt
  have ht : (i 0).val / 1024 < grid0.N := by rw [N_0]; omega
  refine ⟨⟨(i 0).val / 1024, ht⟩, flush0_11 _, ?_⟩
  rw [value_mem_block]
  obtain ⟨f0, f1⟩ := index_facts_11 ⟨(i 0).val / 1024, ht⟩
  intro a
  match a with
  | ⟨0, _⟩ =>
    show win0_11.index ⟨(i 0).val / 1024, ht⟩ (0 : Fin 2) * 1024 ≤ (i 0).val
      ∧ (i 0).val < win0_11.index ⟨(i 0).val / 1024, ht⟩ (0 : Fin 2) * 1024 + 1024
    rw [f0]; show (i 0).val / 1024 * 1024 ≤ (i 0).val ∧ (i 0).val < (i 0).val / 1024 * 1024 + 1024; omega
  | ⟨1, _⟩ =>
    show win0_11.index ⟨(i 0).val / 1024, ht⟩ (1 : Fin 2) * 64 ≤ (i 1).val
      ∧ (i 1).val < win0_11.index ⟨(i 0).val / 1024, ht⟩ (1 : Fin 2) * 64 + 64
    rw [f1]; omega

/-- After the region the value projection array holds `x · W + β`, row by row. -/
theorem arr11 (c : Dev nD) : (dat0 (F := Ideal) V c).arrAt 11 cfg0.N
    = Cert.Attn.projRows (V c main_v2) (V c main_arg7) (V c main_v5) :=
  (dat0 (F := Ideal) V c).arrAt_eq_of_cover 11 _ (fun t _ => value_flushed V c t) value_cover

end Cert.KernelIdeal.ProjValue

end
-- ==== Proof.LibMatmulNT.lean ====
/-
  A matrix product with the right operand transposed, read at an index on the extended reals.

  For `A : [M, K]` and `B : [N, K]`, a product that contracts the LAST axis of both operands (dimension numbers
  `contracting [1] × [1]`, `non-contracting [0] × [0]`, no batch axes: `A · Bᵀ`, what `lax.dot_general` with
  `(((1,), (1,)), ((), ()))` lowers to) into a zero accumulator is, at `(i, j)`, the finite sum
  `Σ_k A[i, k] · B[j, k]` over `k : Fin K`. Stated for ANY record with those dimension numbers, whatever the extents
  and the operands' float formats, so that it applies to a printed record by its six list fields (each `rfl`).
-/
import Idealize.ShloMosaic.Lib.ValueIdx
import Idealize.ShloMosaic.PureOps.Ideal.Laws

noncomputable section

namespace Cert.LibMatmulNT

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![N, K]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's row is the result's column. -/
theorem rhsIdx_row (d : DotDims ⟨2, ![M, K]⟩ ⟨2, ![N, K]⟩ ⟨2, ![M, N]⟩)
    (hlb : d.lhsBatch = []) (hrb : d.rhsBatch = []) (hln : d.lhsNonContracting = [0]) (hrn : d.rhsNonContracting = [0])
    (j : (⟨2, ![M, N]⟩ : Shape).Idx) (k : d.contr.Idx) : (d.rhsIdx j k 0).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![N, K]⟩ ⟨2, ![M, N]⟩) (hlc : d.lhsContracting = [1]) :
    d.contr.rank = 1 := by
  rw [d.rank_contr, hlc]; rfl

theorem contr_size (d : DotDims ⟨2, ![M, K]⟩ ⟨2, ![N, K]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · Bᵀ` into a zero accumulator, at `(i, j)`, is `Σ_k A[i, k] · B[j, k]`. -/
theorem matmul_nt_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision) (A : FVec Ideal ⟨2, ![M, K]⟩ φ₁) (B : FVec Ideal ⟨2, ![N, K]⟩ φ₂)
    (i : Fin M) (j : Fin N) :
    matmul d prec A B (constant ⟨2, ![M, N]⟩ .f32 0x00000000#32) (ix2 i j) = ∑ k : Fin K, A (ix2 i k) * B (ix2 j k) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 j k := funext fun a => Fin.ext (by
    match a with
    | ⟨0, _⟩ => exact rhsIdx_row d hlb hrb hln hrn _ _
    | ⟨1, _⟩ => exact (d.rhsIdx_val_of_single hrc _ _).trans hk)
  rw [el, er]

end Cert.LibMatmulNT

end
-- ==== Proof.LibRowMax.lean ====
/-
  A kernel's row maxima, read at an index given by coordinates.

  `jnp.max(x, axis=1)` of a matrix `[a, b]` is, in a kernel, a lane reduction `[a, b] → [a]` by `maximumf` from an
  accumulator word. On the extended reals `max` is commutative and associative, so the order of the reduction does not
  matter: read at row `r` the result is the fold of `max`, from the value the accumulator's word denotes, over the entries
  `x (r, k)`, `k` running over the row.
-/
import Idealize.ShloMosaic.Lib.ValueIdx
import Idealize.ShloMosaic.PureOps.Ideal.Laws

noncomputable section

namespace Cert.LibRowMax

open Idealize.ShloMosaic Idealize.ShloMosaic.ValueIdx

/-- A lane reduction by `maximumf` of an `[a, b]` matrix along its rows, at the ideal values and read at row `r`: the
    fold of `max` from the accumulator's value over the row. -/
theorem multiReduction_max_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (Finset.fold _ _ · _) (funext fun k => congrArg src (funext fun ax => Fin.ext ?_))
  match ax with
  | ⟨0, _⟩ => rfl
  | ⟨1, _⟩ => rfl

end Cert.LibRowMax

end
-- ==== Proof.LibColumns.lean ====
/-
  Small layout and reduction facts read by coordinates, at the exact values: a column broadcast along rows, a vector
  kept as a column, a lane sum along rows, and a maximum along columns.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibColumns

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A lane sum of an `[a, b]` matrix along its rows, at the exact values and read at row `r`: the sum over the row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- A maximum of an `[a, b]` matrix along its columns, at the exact values and read at column `c`: the fold of max from
    the accumulator's value over the column. -/
theorem multiReduction_max_cols_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (c : Fin b) :
    multiReduction .maximumf [0] ⟨1, ![b]⟩ src acc h hφ hacc (ix1 c)
      = (Finset.univ : Finset (Fin a)).fold max (Ideal.ofBits φ acc) (fun k => src (ix2 k c)) := by
  refine (Ideal.multiReduction_maximumf_single src acc h hφ hacc (ix1 c)).trans ?_
  refine congrArg (Finset.fold _ _ · _) (funext fun k => congrArg src (funext fun ax => Fin.ext ?_))
  match ax with
  | ⟨0, _⟩ => rfl
  | ⟨1, _⟩ => rfl

end Cert.LibColumns

end
-- ==== Proof.AttnValue.lean ====
/-
  The attention stage of the head, read entry by entry on the extended reals.

  At a grid point the body sees one block of 512 query rows and the whole 2048 key rows and value rows of one batch. It
  forms the scores `q · kᵀ` scaled by the float `0.125`, subtracts each row's maximum, exponentiates, and divides the
  weighted sum of the value rows by the weights' total. Read at row `r` and head coordinate `h` this is
  `sumThenNormalise` of the row of scaled scores and the column `h` of the values. The 32 blocks of 512 rows tile the
  `[8, 2048, 64]` result, so the whole array is `scaledSumFirst` of the three projected arrays.
-/
import proofs.«141790_j37898791420154_2_alg».proof.Proof.Gen.KernelIdeal.Frame
import proofs.«141790_j37898791420154_2_alg».proof.Proof.Spec
import proofs.«141790_j37898791420154_2_alg».proof.Proof.LibMatmulNN
import proofs.«141790_j37898791420154_2_alg».proof.Proof.LibMatmulNT
import proofs.«141790_j37898791420154_2_alg».proof.Proof.LibRowMax
import proofs.«141790_j37898791420154_2_alg».proof.Proof.LibColumns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.AttnValue

open Cert.KernelIdeal Cert.KernelIdeal.Gen Idealize.ShloMosaic Idealize.ShloMosaic.TcCoe Idealize.ShloMosaic.ValueIdx
open Idealize.SL.Sem
open Idealize.ShloMosaic.Pipeline (Dat Cfg Window)

/-! ## The body at an index -/

/-- The float pattern of minus infinity denotes the bottom element. -/
private theorem ofBits_negInf : Ideal.ofBits .f32 0xFF800000#32 = (⊥ : EReal) := by
  simp [Ideal.ofBits, Ideal.ieee]

/-- The scaled scores of a block of queries against the keys: `q · kᵀ` times the float `0.125`. -/
def scores (x0 : Vec Ideal S1x512x64 .bf16) (x1 : Vec Ideal S1x2048x64 .bf16) : FVec Ideal S512x2048 .f32 :=
  mulf (matmul dot_S512x64_S2048x64_S512x2048_1_1_0_0_n_n none
      (shapeCast S512x64 x0 shapeCasts_S1x512x64_S512x64 : FVec Ideal S512x64 .bf16)
      (shapeCast S2048x64 x1 shapeCasts_S1x2048x64_S2048x64 : FVec Ideal S2048x64 .bf16)
      (constant (F := Ideal) S512x2048 .f32 0x00000000#32))
    (broadcast S512x2048 (Scalar.ofBits (F := Ideal) .f32 0x3E000000#32))

/-- The weights of a matrix of scores: `exp` of each entry less its row's maximum. -/
def weights (z : FVec Ideal S512x2048 .f32) : FVec Ideal S512x2048 .f32 :=
  exp (subf z (broadcastTo S512x2048
    (shapeCast S512x1 (multiReduction (F := Ideal) .maximumf [1] S512 z 0xFF800000#32 reduces_S512x2048_S512 (.inl rfl) rfl)
      shapeCasts_S512_S512x1) broadcasts_S512x1_S512x2048))

/-- The weighted sums of the value rows divided by the weights' row totals, as a block `[1, 512, 64]`. -/
def normalised (e : FVec Ideal S512x2048 .f32) (x2 : Vec Ideal S1x2048x64 .bf16) : FVec Ideal S1x512x64 .f32 :=
  shapeCast S1x512x64
    (divf (matmul dot_S512x2048_S2048x64_S512x64_1_0_0_1_n_n none
        (truncf .bf16 e bitsLt_bf16_f32 : FVec Ideal S512x2048 .bf16)
        (shapeCast S2048x64 x2 shapeCasts_S1x2048x64_S2048x64 : FVec Ideal S2048x64 .bf16)
        (constant (F := Ideal) S512x64 .f32 0x00000000#32))
      (broadcastTo S512x64
        (shapeCast S512x1 (multiReduction (F := Ideal) .add [1] S512 e 0x00000000#32 reduces_S512x2048_S512 (.inl rfl) rfl)
          shapeCasts_S512_S512x1) broadcasts_S512x1_S512x64))
    shapeCasts_S512x64_S1x512x64

/-- The body's payload is the normalised weighted sum under the weights of the scaled scores. -/
theorem pay_eq (x0 : Vec Ideal S1x512x64 .bf16) (x1 x2 : Vec Ideal S1x2048x64 .bf16) :
    k1_pay1 (F := Ideal) x0 x1 x2 = normalised (weights (scores x0 x1)) x2 := rfl

/-- A scaled score: the inner product of the query row and the key row, times the float `0.125`. -/
theorem scores_apply (x0 : Vec Ideal S1x512x64 .bf16) (x1 : Vec Ideal S1x2048x64 .bf16) (r : Fin 512) (t : Fin 2048) :
    scores x0 x1 (ix2 r t)
      = (∑ d : Fin 64, x0 (ix3 (0 : Fin 1) r d) * x1 (ix3 (0 : Fin 1) t d)) * Ideal.ofBits .f32 0x3E000000#32 := by
  unfold scores
  rw [mulf_apply, broadcast_apply]
  refine congrArg₂ (· * ·) ?_ rfl
  refine (Cert.LibMatmulNT.matmul_nt_apply dot_S512x64_S2048x64_S512x2048_1_1_0_0_n_n rfl rfl rfl rfl rfl rfl none _ _ r t).trans ?_
  refine Finset.sum_congr rfl fun d _ => ?_
  rw [shapeCast_1ab_ab_apply, shapeCast_1ab_ab_apply]

/-- A weight: `exp` of the score less the maximum of its row. -/
theorem weights_apply (z : FVec Ideal S512x2048 .f32) (r : Fin 512) (t : Fin 2048) :
    weights z (ix2 r t) = Ideal.exp (z (ix2 r t) - Cert.Attn.rowMax (fun k : Fin 2048 => z (ix2 r k))) := by
  unfold weights
  show Ideal.exp (subf z _ (ix2 r t)) = _
  rw [subf_apply, Cert.LibColumns.broadcastTo_a1_ab_apply, Cert.LibColumns.shapeCast_a_a1_apply]
  refine congrArg (fun m => Ideal.exp (z (ix2 r t) - m)) ((Cert.LibRowMax.multiReduction_max_rows_apply z _ _ _ _ r).trans ?_)
  rw [ofBits_negInf]
  rfl

/-- The normalised weighted sum at row `r`, head coordinate `h`: the weighted sum of the values' column divided by the
    weights' row total. -/
theorem normalised_apply (e : FVec Ideal S512x2048 .f32) (x2 : Vec Ideal S1x2048x64 .bf16) (r : Fin 512) (h : Fin 64) :
    normalised e x2 (ix3 (0 : Fin 1) r h)
      = Ideal.div (∑ t : Fin 2048, e (ix2 r t) * x2 (ix3 (0 : Fin 1) t h)) (∑ t : Fin 2048, e (ix2 r t)) := by
  unfold normalised
  rw [shapeCast_ab_1ab_apply, divf_apply, Cert.LibColumns.broadcastTo_a1_ab_apply, Cert.LibColumns.shapeCast_a_a1_apply]
  refine congrArg₂ Ideal.div ?_ (Cert.LibColumns.multiReduction_add_rows_apply e _ _ _ _ r)
  refine (Cert.LibMatmulNN.matmul_nn_apply dot_S512x2048_S2048x64_S512x64_1_0_0_1_n_n rfl rfl rfl rfl rfl rfl none _ _ r h).trans ?_
  refine Finset.sum_congr rfl fun t _ => ?_
  rw [truncf_apply, shapeCast_1ab_ab_apply]

/-- THE BODY AT AN INDEX: row `r`, head coordinate `h` of the block the body stores is `sumThenNormalise` of the row of
    scaled scores and the values' column `h`. -/
theorem pay_apply (x0 : Vec Ideal S1x512x64 .bf16) (x1 x2 : Vec Ideal S1x2048x64 .bf16) (r : Fin 512) (h : Fin 64) :
    k1_pay1 (F := Ideal) x0 x1 x2 (ix3 (0 : Fin 1) r h)
      = Cert.Attn.sumThenNormalise
          (fun t : Fin 2048 => (∑ d : Fin 64, x0 (ix3 (0 : Fin 1) r d) * x1 (ix3 (0 : Fin 1) t d)) * Ideal.ofBits .f32 0x3E000000#32)
          (fun t : Fin 2048 => x2 (ix3 (0 : Fin 1) t h)) := by
  rw [pay_eq, normalised_apply]
  unfold Cert.Attn.sumThenNormalise
  simp only [weights_apply, scores_apply]

/-! ## From blocks to the array -/

section Blocks

variable (V : (c : Dev nD) → (b : Ref sig .tc) → Buf (Elt Ideal) ((c : Thread nD τ).loc b))

/-- The body at any index of its block: the leading coordinate of a `[1, 512, 64]` block is `0`. -/
theorem pay_at (x0 : Vec Ideal S1x512x64 .bf16) (x1 x2 : Vec Ideal S1x2048x64 .bf16) (j : S1x512x64.Idx) :
    k1_pay1 (F := Ideal) x0 x1 x2 j
      = Cert.Attn.sumThenNormalise
          (fun t : Fin 2048 => (∑ d : Fin 64, x0 (ix3 (0 : Fin 1) (j 1) d) * x1 (ix3 (0 : Fin 1) t d)) * Ideal.ofBits .f32 0x3E000000#32)
          (fun t : Fin 2048 => x2 (ix3 (0 : Fin 1) t (j 2))) := by
  have hj0 : (j 0).val < 1 := (j 0).isLt
  have hj : j = ix3 (0 : Fin 1) (j 1) (j 2) :=
    (eq_ix3 j).trans (congrArg (fun u : Fin 1 => ix3 u (j 1) (j 2)) (Fin.ext (by show (j 0).val = 0; omega)))
  exact (congrArg (k1_pay1 (F := Ideal) x0 x1 x2) hj).trans (pay_apply x0 x1 x2 (j 1) (j 2))

/-- The head's output at an index given by coordinates. -/
theorem scaledSumFirst_apply (q k v : Cert.Attn.HS.Idx → EReal) (b : Fin 8) (s : Fin 2048) (h : Fin 64) :
    Cert.Attn.scaledSumFirst q k v (ix3 b s h)
      = Cert.Attn.sumThenNormalise
          (fun t : Fin 2048 => (∑ d : Fin 64, q (ix3 b s d) * k (ix3 b t d)) * Ideal.ofBits .f32 0x3E000000#32)
          (fun t : Fin 2048 => v (ix3 b t h)) := rfl

theorem origin3 : (![0, 0, 0] : Fin 3 → Nat) = fun _ => 0 := funext fun a => by fin_cases a <;> rfl

/-- The printed index maps, decided over the 32 grid points: the query block moves with the output block; the key and
    value blocks follow its batch coordinate only and are whole along the sequence; the output's block indices stay in
    their ranges. -/
theorem idx_facts : ∀ t : Fin cfg1.N,
    win1_0.index t (0 : Fin 3) = win1_3.index t (0 : Fin 3)
    ∧ win1_0.index t (1 : Fin 3) = win1_3.index t (1 : Fin 3)
    ∧ win1_0.index t (2 : Fin 3) = 0
    ∧ win1_1.index t (0 : Fin 3) = win1_3.index t (0 : Fin 3)
    ∧ win1_1.index t (1 : Fin 3) = 0
    ∧ win1_1.index t (2 : Fin 3) = 0
    ∧ win1_2.index t (0 : Fin 3) = win1_3.index t (0 : Fin 3)
    ∧ win1_2.index t (1 : Fin 3) = 0
    ∧ win1_2.index t (2 : Fin 3) = 0
    ∧ win1_3.index t (0 : Fin 3) ≤ 7
    ∧ win1_3.index t (1 : Fin 3) ≤ 3
    ∧ win1_3.index t (2 : Fin 3) = 0 :=
  (by decide +kernel : ∀ t : Fin grid1.N, _)

/-- Every batch and every block of 512 query rows is SOME point's. -/
theorem idx_onto : ∀ (b : Fin 8) (qi : Fin 4), ∃ t : Fin cfg1.N, win1_3.index t = ![b.val, qi.val, 0] :=
  (by decide +kernel : ∀ (b : Fin 8) (qi : Fin 4), ∃ t : Fin grid1.N, win1_3.index t = ![b.val, qi.val, 0])

/-- The query block at a point, read at `x`, is the projected queries at the block's offset plus `x`. -/
theorem qblk_apply (c : Dev nD) (t : Fin cfg1.N) (x : S1x512x64.Idx) (k : S8x2048x64.Idx)
    (h0 : win1_0.index t (0 : Fin 3) * 1 + 1 * (x 0).val = (k 0).val)
    (h1 : win1_0.index t (1 : Fin 3) * 512 + 1 * (x 1).val = (k 1).val)
    (h2 : win1_0.index t (2 : Fin 3) * 64 + 1 * (x 2).val = (k 2).val) :
    (iblk1 V c 0 t : Vec Ideal S1x512x64 .bf16) x = (V c main_v7 : S8x2048x64.Idx → Elt Ideal .bf16) k := by
  unfold iblk1
  rw [View.read_apply]
  show V c main_v7 _ = V c main_v7 _
  congr 1
  funext a
  apply Fin.ext
  match a with
  | ⟨0, _⟩ => exact h0
  | ⟨1, _⟩ => exact h1
  | ⟨2, _⟩ => exact h2

/-- The key block at a point, read at `x`, is the projected keys at the block's offset plus `x`. -/
theorem kblk_apply (c : Dev nD) (t : Fin cfg1.N) (x : S1x2048x64.Idx) (k : S8x2048x64.Idx)
    (h0 : win1_1.index t (0 : Fin 3) * 1 + 1 * (x 0).val = (k 0).val)
    (h1 : win1_1.index t (1 : Fin 3) * 2048 + 1 * (x 1).val = (k 1).val)
    (h2 : win1_1.index t (2 : Fin 3) * 64 + 1 * (x 2).val = (k 2).val) :
    (iblk1 V c 1 t : Vec Ideal S1x2048x64 .bf16) x = (V c main_v8 : S8x2048x64.Idx → Elt Ideal .bf16) k := by
  unfold iblk1
  rw [View.read_apply]
  show V c main_v8 _ = V c main_v8 _
  congr 1
  funext a
  apply Fin.ext
  match a with
  | ⟨0, _⟩ => exact h0
  | ⟨1, _⟩ => exact h1
  | ⟨2, _⟩ => exact h2

/-- The value block at a point, read at `x`, is the projected values at the block's offset plus `x`. -/
theorem vblk_apply (c : Dev nD) (t : Fin cfg1.N) (x : S1x2048x64.Idx) (k : S8x2048x64.Idx)
    (h0 : win1_2.index t (0 : Fin 3) * 1 + 1 * (x 0).val = (k 0).val)
    (h1 : win1_2.index t (1 : Fin 3) * 2048 + 1 * (x 1).val = (k 1).val)
    (h2 : win1_2.index t (2 : Fin 3) * 64 + 1 * (x 2).val = (k 2).val) :
    (iblk1 V c 2 t : Vec Ideal S1x2048x64 .bf16) x = (V c main_v9 : S8x2048x64.Idx → Elt Ideal .bf16) k := by
  unfold iblk1
  rw [View.read_apply]
  show V c main_v9 _ = V c main_v9 _
  congr 1
  funext a
  apply Fin.ext
  match a with
  | ⟨0, _⟩ => exact h0
  | ⟨1, _⟩ => exact h1
  | ⟨2, _⟩ => exact h2

/-- WHAT POINT `t` WRITES BACK is block `t` of the head's output computed from the three projected arrays as the stage
    finds them: rows `512·qi … 512·qi + 511` of batch `b` see the query rows at the same places and all 2048 key and value
    rows of batch `b`. -/
theorem flushed_eq (c : Dev nD) (t : Fin cfg1.N) :
    (dat1 (F := Ideal) V c).flushed 3 t
      = ((cfg1.win 3).blk t).view.read (Elt Ideal)
          (Cert.Attn.scaledSumFirst (V c main_v7) (V c main_v8) (V c main_v9)) := by
  show (cfg1.win 3).cut (grid1.coords t) ((dat1 V c).after 3 t) = _
  rw [after1_3]
  unfold out1_3
  rw [View.canon_unit_zero origin3]
  simp only [View.ld_unit_zero (S := S1x512x64) origin3, View.ld_unit_zero (S := S1x2048x64) origin3]
  obtain ⟨e00, e01, e02, e10, e11, e12, e20, e21, e22, -, -, e32⟩ := idx_facts t
  refine funext fun (j : S1x512x64.Idx) => ?_
  have hj0 : (j 0).val < 1 := (j 0).isLt
  obtain ⟨b, s, h, hE⟩ : ∃ (b : Fin 8) (s : Fin 2048) (h : Fin 64),
      (((cfg1.win 3).blk t).view.emb j : S8x2048x64.Idx) = ix3 b s h := ⟨_, _, _, eq_ix3 _⟩
  have hb : win1_3.index t (0 : Fin 3) * 1 + 1 * (j 0).val = b.val := congrArg (fun i : S8x2048x64.Idx => (i 0).val) hE
  have hs : win1_3.index t (1 : Fin 3) * 512 + 1 * (j 1).val = s.val := congrArg (fun i : S8x2048x64.Idx => (i 1).val) hE
  have hh : win1_3.index t (2 : Fin 3) * 64 + 1 * (j 2).val = h.val := congrArg (fun i : S8x2048x64.Idx => (i 2).val) hE
  refine (pay_at _ _ _ j).trans ?_
  show _ = Cert.Attn.scaledSumFirst (V c main_v7) (V c main_v8) (V c main_v9) (((cfg1.win 3).blk t).view.emb j)
  rw [hE]
  refine Eq.trans ?_ (scaledSumFirst_apply _ _ _ b s h).symm
  refine congrArg₂ Cert.Attn.sumThenNormalise (funext fun t' => ?_) (funext fun t' => ?_)
  · refine congrArg (· * Ideal.ofBits .f32 0x3E000000#32) (Finset.sum_congr rfl fun d _ => ?_)
    refine congrArg₂ (· * ·) ?_ ?_
    · exact qblk_apply V c t _ _ (by show _ * 1 + 1 * 0 = b.val; omega) (by show _ * 512 + 1 * (j 1).val = s.val; omega)
        (by show _ * 64 + 1 * d.val = d.val; omega)
    · exact kblk_apply V c t _ _ (by show _ * 1 + 1 * 0 = b.val; omega) (by show _ * 2048 + 1 * t'.val = t'.val; omega)
        (by show _ * 64 + 1 * d.val = d.val; omega)
  · exact vblk_apply V c t _ _ (by show _ * 1 + 1 * 0 = b.val; omega) (by show _ * 2048 + 1 * t'.val = t'.val; omega)
      (by show _ * 64 + 1 * (j 2).val = h.val; omega)

/-- An index of the result is in point `t`'s block iff each coordinate is in the block's range on its axis. -/
theorem mem_blk (t : Fin cfg1.N) (i : S8x2048x64.Idx) :
    i ∈ ((cfg1.win 3).blk t).view.set ↔ ∀ a : Fin 3, win1_3.index t a * S1x512x64.size a ≤ (i a).val
      ∧ (i a).val < win1_3.index t a * S1x512x64.size a + S1x512x64.size a := by
  show i ∈ ((View.whole main_v10).slice (win1_3.rect t)).set ↔ _
  rw [View.set_slice_whole, Rect.mem_set_unit]
  exact Iff.rfl

/-- The blocks tile the result: entry `(b, s, h)` is in the block of the point with block index `(b, s / 512, 0)`. -/
theorem cover (i : S8x2048x64.Idx) :
    ∃ t : Fin cfg1.N, (cfg1.win 3).flush t = true ∧ i ∈ ((cfg1.win 3).blk t).view.set := by
  have hi0 : (i 0).val < 8 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  have q0 : win1_3.index t (0 : Fin 3) = (i 0).val := congrFun ht 0
  have q1 : win1_3.index t (1 : Fin 3) = (i 1).val / 512 := congrFun ht 1
  have q2 : win1_3.index t (2 : Fin 3) = 0 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 64 ≤ (i 2).val ∧ (i 2).val < win1_3.index t (2 : Fin 3) * 64 + 64; omega

/-- THE RESULT ARRAY after the stage: the head's output, scores scaled by the float `0.125` and the total divided out
    after the sum, of the three projected arrays as the stage finds them. -/
theorem arr3 (c : Dev nD) :
    (dat1 (F := Ideal) V c).arrAt 3 cfg1.N = Cert.Attn.scaledSumFirst (V c main_v7) (V c main_v8) (V c main_v9) :=
  (dat1 (F := Ideal) V c).arrAt_eq_of_cover 3 _ (fun t _ => flushed_eq V c t) cover

end Blocks

end Cert.KernelIdeal.AttnValue

end
-- ==== Proof.LibHostMax3.lean ====
/-
  The maximum of a rank-3 array along its last axis, in a host program, read at an index given by coordinates.

  A `stablehlo.reduce` whose body is `maximum`, over the last axis of an `[a, b, c]` array, leaves an `[a, b]` array; its
  entry at `(p, r)` is the fold of `max`, from the initial value's one element, over the `c` entries `x (p, r, k)`. Since
  `max` is commutative and associative the order of the fold does not matter, and the fold over the indices that drop to
  `(p, r)` is the fold over the last coordinate `k` with `(p, r)` held fixed.
-/
import Idealize.ShloMosaic.Lib.ValueLayout
import Idealize.ShloMosaic.PureOps.Ideal.Laws

noncomputable section

open scoped BigOperators

namespace Idealize.ShloMosaic.ValueIdx

open Idealize.ShloMosaic

/-- The host's maximum of an `[a, b, c]` array along its last axis, read at `(p, r)`: the fold of `max`, from the initial
    value, over the entries `x (p, r, k)`, `k` running over the last axis, in any order. -/
theorem hostReduce_max_last3_apply {a b c : ℕ} {φ : FTy} {u : Shape} (x : FVec Ideal ⟨3, ![a, b, c]⟩ φ)
    (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (r : Fin b) :
    Host.reduce (FloatOps.maximumf (F := Ideal) (φ := φ)) x init h' hu (ix2 p r)
      = (Finset.univ : Finset (Fin c)).fold max (init (Shape.Idx.first hu)) (fun k => x (ix3 p r k)) := by
  refine (Host.reduce_eq_fold_single (FloatOps.maximumf (F := Ideal) (φ := φ)) x init h' h hu (ix2 p r)).trans ?_
  refine congrArg (Finset.fold _ _ · _) (funext fun k => congrArg x (funext fun ax => Fin.ext ?_))
  match ax with
  | ⟨0, _⟩ => rfl
  | ⟨1, _⟩ => rfl
  | ⟨2, _⟩ => rfl

/-- The host's sum of an `[a, b, c]` array along its last axis, at the ideal values and read at `(p, r)`: the initial
    value plus the sum of the entries `x (p, r, k)`. -/
theorem hostReduceAdd_last3_apply {a b c : ℕ} {φ : FTy} {u : Shape} (x : FVec Ideal ⟨3, ![a, b, c]⟩ φ)
    (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (r : Fin b) :
    Host.reduceAdd x init h' hu (ix2 p r) = init (Shape.Idx.first hu) + ∑ k : Fin c, x (ix3 p r k) := by
  simp only [Host.reduceAdd, Ideal.hostReduceAdd_def]
  rw [Ideal.hostReduceAdd_single h' h]
  refine congrArg (_ + ·) (Finset.sum_congr rfl fun k _ => congrArg x (funext fun ax => Fin.ext ?_))
  match ax with
  | ⟨0, _⟩ => rfl
  | ⟨1, _⟩ => rfl
  | ⟨2, _⟩ => rfl

end Idealize.ShloMosaic.ValueIdx

end
-- ==== Proof.RefValue.lean ====
/-
  The value of the reference program, entry by entry.

  The reference computes three projections `x · W + β`, the raw scores as inner products of query and key rows, divides
  every score by the square root of the float `64`, subtracts from each row of scores its maximum, exponentiates,
  divides every weight by the total of its row, and sums the value rows under the divided weights. Read at an index
  `(b, s, h)` this is `dividedWeightsFirst` of the three projections.

  The proof reads the operations in program order at an index given by its coordinates: the projections first, then a
  scaled score at `(b, s, t)`, the row maximum and the row total at `(b, s)`, a divided weight at `(b, s, t)`, and the
  result at `(b, s, h)`. The row maximum is a fold of `max` from minus infinity, the bottom element, and the further
  `max` against minus infinity changes nothing; the total is a sum from zero.
-/
import proofs.«141790_j37898791420154_2_alg».proof.Proof.Gen.ReferenceIdeal.Read
import proofs.«141790_j37898791420154_2_alg».proof.Proof.Spec
import proofs.«141790_j37898791420154_2_alg».proof.Proof.LibHostMax3
import Idealize.ShloMosaic.Lib.ValueIdx
import Idealize.ShloMosaic.PureOps.Ideal.Laws

noncomputable section

open scoped BigOperators

namespace Cert.Attn.Ref

open Cert.ReferenceIdeal Idealize.ShloMosaic Idealize.ShloMosaic.ValueIdx

/-- The float pattern of minus infinity denotes the bottom element. -/
theorem negInf : Ideal.ofBits .f32 0xFF800000#32 = (⊥ : EReal) := by
  simp [Ideal.ofBits, Ideal.ieee]

/-- The float `+0.0` denotes zero. -/
theorem posZero : Ideal.ofBits .f32 0x00000000#32 = (0 : EReal) := by
  simp [Ideal.ofBits, Ideal.ieee]

/-- The row of scaled scores of query position `s` in batch `b`: each raw score divided by the square root of the
    float `64`. -/
def scores (q k : HS.Idx → EReal) (b : Fin 8) (s : Fin 2048) : Fin 2048 → EReal :=
  fun t => Ideal.div (qk q k b s t) (Ideal.sqrt (Ideal.ofBits .f32 0x42800000#32))

variable (x0 x1 x2 : (⟨S8x2048x1024, .f32⟩ : BufTy).Contents (Elt Ideal))
  (x3 : (⟨S1024x64, .f32⟩ : BufTy).Contents (Elt Ideal)) (x4 : (⟨S64, .f32⟩ : BufTy).Contents (Elt Ideal))
  (x5 : (⟨S1024x64, .f32⟩ : BufTy).Contents (Elt Ideal)) (x6 : (⟨S64, .f32⟩ : BufTy).Contents (Elt Ideal))
  (x7 : (⟨S1024x64, .f32⟩ : BufTy).Contents (Elt Ideal)) (x8 : (⟨S64, .f32⟩ : BufTy).Contents (Elt Ideal))

/-- The first projection is `proj`: the contraction over the 1024 embedding coordinates plus the bias at `h`. -/
theorem v3_eq : Read.val_main_v3 (F := Ideal) x0 x3 x4 = proj x0 x3 x4 := by
  funext i
  obtain ⟨b, s, h, rfl⟩ : ∃ b s h, i = ix3 b s h := ⟨i 0, i 1, i 2, eq_ix3 i⟩
  rw [Read.val_main_v3_apply, Read.val_main_v0_apply, Read.val_main_v2_apply, Read.val_main_v1_apply]
  show (∑ e : Fin 1024, x0 _ * x3 _) + x4 _ = (∑ e : Fin 1024, x0 (ix3 b s e) * x3 (ix2 e h)) + x4 (ix1 h)
  refine congrArg₂ (· + ·) (Finset.sum_congr rfl fun e _ => congrArg₂ (· * ·) (congrArg x0 ?_) (congrArg x3 ?_)) (congrArg x4 ?_)
  · exact funext fun a => by match a with | ⟨0, _⟩ => rfl | ⟨1, _⟩ => rfl | ⟨2, _⟩ => rfl
  · exact funext fun a => by match a with | ⟨0, _⟩ => rfl | ⟨1, _⟩ => rfl
  · exact funext fun a => by match a with | ⟨0, _⟩ => rfl

/-- The second and third projections are the same function of their own arguments. -/
theorem v7_eq : Read.val_main_v7 (F := Ideal) x1 x5 x6 = proj x1 x5 x6 := v3_eq x1 x5 x6
theorem v11_eq : Read.val_main_v11 (F := Ideal) x2 x7 x8 = proj x2 x7 x8 := v3_eq x2 x7 x8

/-- A scaled score at `(b, s, t)`: the inner product of the query row `s` and the key row `t`, divided by the square root
    of the float `64`. -/
theorem v15_apply (b : Fin 8) (s t : Fin 2048) :
    Read.val_main_v15 (F := Ideal) x0 x1 x3 x4 x5 x6 (ix3 b s t)
      = scores (proj x0 x3 x4) (proj x1 x5 x6) b s t := by
  rw [Read.val_main_v15_apply, Read.val_main_v12_apply, Read.val_main_v14_apply, Read.val_main_v13_apply,
    Read.val_main_cst_apply, v3_eq, v7_eq]
  show Ideal.div (∑ h : Fin 64, proj x0 x3 x4 _ * proj x1 x5 x6 _) (Ideal.sqrt (Ideal.ofBits .f32 0x42800000#32))
    = Ideal.div (∑ h : Fin 64, proj x0 x3 x4 (ix3 b s h) * proj x1 x5 x6 (ix3 b t h)) _
  refine congrArg (Ideal.div · _) (Finset.sum_congr rfl fun h _ =>
    congrArg₂ (· * ·) (congrArg (proj x0 x3 x4) ?_) (congrArg (proj x1 x5 x6) ?_))
  · exact funext fun a => by match a with | ⟨0, _⟩ => rfl | ⟨1, _⟩ => rfl | ⟨2, _⟩ => rfl
  · exact funext fun a => by match a with | ⟨0, _⟩ => rfl | ⟨1, _⟩ => rfl | ⟨2, _⟩ => rfl

/-- The maximum of the row `(b, s)` of scaled scores: the fold of `max` from minus infinity over the row, and `max`
    against minus infinity once more. -/
theorem v18_apply (b : Fin 8) (s : Fin 2048) :
    Read.val_main_v18 (F := Ideal) x0 x1 x3 x4 x5 x6 (ix2 b s)
      = rowMax (scores (proj x0 x3 x4) (proj x1 x5 x6) b s) := by
  rw [Read.val_main_v18_apply, Read.val_main_v17_apply, Read.val_main_cst_1_apply]
  unfold Read.val_main_v16
  rw [hostReduce_max_last3_apply (Read.val_main_v15 (F := Ideal) x0 x1 x3 x4 x5 x6) (Read.val_main_cst_0 (F := Ideal))
    Facts₀.reducesTo_S8x2048x2048_S8x2048_d2 (by decide) Facts₀.h_S_ b s, Read.val_main_cst_0_apply]
  show max (Ideal.ofBits .f32 0xFF800000#32) (Finset.fold max (Ideal.ofBits .f32 0xFF800000#32) _ Finset.univ) = _
  rw [negInf, bot_sup_eq]
  unfold rowMax
  exact congrArg (Finset.fold max ⊥ · Finset.univ) (funext fun t => v15_apply x0 x1 x3 x4 x5 x6 b s t)

/-- A weight at `(b, s, t)`: the exponential of the scaled score less the maximum of its row. -/
theorem v22_apply (b : Fin 8) (s t : Fin 2048) :
    Read.val_main_v22 (F := Ideal) x0 x1 x3 x4 x5 x6 (ix3 b s t)
      = Ideal.exp (scores (proj x0 x3 x4) (proj x1 x5 x6) b s t - rowMax (scores (proj x0 x3 x4) (proj x1 x5 x6) b s)) := by
  rw [Read.val_main_v22_apply, Read.val_main_v21_apply, Read.val_main_v20_apply, Read.val_main_v19_apply, v15_apply]
  have e : Read.idx_main_v19 (Read.idx_main_v20 (ix3 b s t)) = ix2 b s :=
    funext fun a => by match a with | ⟨0, _⟩ => rfl | ⟨1, _⟩ => rfl
  rw [e, v18_apply]
  rfl

/-- The total of the weights of the row `(b, s)`: their sum from zero. -/
theorem v23_apply (b : Fin 8) (s : Fin 2048) :
    Read.val_main_v23 (F := Ideal) x0 x1 x3 x4 x5 x6 (ix2 b s)
      = ∑ u : Fin 2048, Ideal.exp (scores (proj x0 x3 x4) (proj x1 x5 x6) b s u
          - rowMax (scores (proj x0 x3 x4) (proj x1 x5 x6) b s)) := by
  rw [Read.val_main_v23_apply, Read.val_main_cst_2_apply]
  show Ideal.ofBits .f32 0x00000000#32 + _ = _
  rw [posZero, zero_add]
  refine Finset.sum_congr rfl fun u _ => ?_
  have e : Read.idx_main_v23 (ix2 b s) u = ix3 b s u :=
    funext fun a => by match a with | ⟨0, _⟩ => rfl | ⟨1, _⟩ => rfl | ⟨2, _⟩ => rfl
  rw [e, v22_apply]

/-- A divided weight at `(b, s, t)`: the weight over the total of its row. -/
theorem v26_apply (b : Fin 8) (s t : Fin 2048) :
    Read.val_main_v26 (F := Ideal) x0 x1 x3 x4 x5 x6 (ix3 b s t)
      = Ideal.div
          (Ideal.exp (scores (proj x0 x3 x4) (proj x1 x5 x6) b s t - rowMax (scores (proj x0 x3 x4) (proj x1 x5 x6) b s)))
          (∑ u : Fin 2048, Ideal.exp (scores (proj x0 x3 x4) (proj x1 x5 x6) b s u
            - rowMax (scores (proj x0 x3 x4) (proj x1 x5 x6) b s))) := by
  rw [Read.val_main_v26_apply, Read.val_main_v25_apply, Read.val_main_v24_apply, v22_apply]
  have e : Read.idx_main_v24 (Read.idx_main_v25 (ix3 b s t)) = ix2 b s :=
    funext fun a => by match a with | ⟨0, _⟩ => rfl | ⟨1, _⟩ => rfl
  rw [e, v23_apply]
  rfl

/-- The reference's result is the head's output with every score divided by the square root of the float `64` and
    every weight divided by its row's total before the sum over the value rows. -/
theorem ref_value (x0 x1 x2 : (⟨S8x2048x1024, .f32⟩ : BufTy).Contents (Elt Ideal)) (x3 : (⟨S1024x64, .f32⟩ : BufTy).Contents (Elt Ideal)) (x4 : (⟨S64, .f32⟩ : BufTy).Contents (Elt Ideal)) (x5 : (⟨S1024x64, .f32⟩ : BufTy).Contents (Elt Ideal)) (x6 : (⟨S64, .f32⟩ : BufTy).Contents (Elt Ideal)) (x7 : (⟨S1024x64, .f32⟩ : BufTy).Contents (Elt Ideal)) (x8 : (⟨S64, .f32⟩ : BufTy).Contents (Elt Ideal)) :
    Cert.ReferenceIdeal.Read.val_main_v27 (F := Ideal) x0 x1 x2 x3 x4 x5 x6 x7 x8
      = Cert.Attn.dividedWeightsFirst (Cert.Attn.proj x0 x3 x4) (Cert.Attn.proj x1 x5 x6) (Cert.Attn.proj x2 x7 x8) := by
  funext i
  obtain ⟨b, s, h, rfl⟩ : ∃ b s h, i = ix3 b s h := ⟨i 0, i 1, i 2, eq_ix3 i⟩
  rw [Read.val_main_v27_apply, v11_eq]
  show _ = ∑ t : Fin 2048,
    Ideal.div
      (Ideal.exp (scores (proj x0 x3 x4) (proj x1 x5 x6) b s t - rowMax (scores (proj x0 x3 x4) (proj x1 x5 x6) b s)))
      (∑ u : Fin 2048, Ideal.exp (scores (proj x0 x3 x4) (proj x1 x5 x6) b s u
        - rowMax (scores (proj x0 x3 x4) (proj x1 x5 x6) b s)))
      * proj x2 x7 x8 (ix3 b t h)
  refine Finset.sum_congr rfl fun t _ => ?_
  have el : Read.lidx_main_v27 (ix3 b s h) t = ix3 b s t :=
    funext fun a => by match a with | ⟨0, _⟩ => rfl | ⟨1, _⟩ => rfl | ⟨2, _⟩ => rfl
  have er : Read.ridx_main_v27 (ix3 b s h) t = ix3 b t h :=
    funext fun a => by match a with | ⟨0, _⟩ => rfl | ⟨1, _⟩ => rfl | ⟨2, _⟩ => rfl
  rw [el, er, v26_apply]

end Cert.Attn.Ref

end
-- ==== Proof.LibReal.lean ====
/-
  Real numbers among the extended reals.

  Over the extended reals the sum and the product are total, but the laws that move a factor across a sum hold only
  away from the infinities. `IsReal z` says `z` is a real number; real numbers are closed under the sum, the product,
  finite sums and the logistic function, a real factor moves inside a finite sum of real numbers
  (`mul_sum_of_real`), and a scatter that adds real updates into a real array gives a real array.

  How an input is known to be real: a precondition that compares the absolute value of every element of a 32-bit float
  array with plus infinity (the pattern 0x7F800000) says, element by element, that the element is a real number
  (`elem_real`: one element of that comparison being 1; the all-reduce by "and" of the comparison gives every element's).
-/
import Idealize.ShloMosaic.PureOps.Ideal
import Idealize.ShloMosaic.PureOps.Ideal.Laws

noncomputable section

open scoped BigOperators

namespace Cert.LibReal

open Idealize.ShloMosaic

/-- An extended real that is a real number. -/
def IsReal (z : EReal) : Prop := ∃ r : ℝ, z = (r : EReal)

theorem IsReal.coe (r : ℝ) : IsReal (r : EReal) := ⟨r, rfl⟩

theorem IsReal.zero : IsReal 0 := ⟨0, EReal.coe_zero.symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

/-- A finite sum of real numbers is a real number. -/
theorem IsReal.sum {ι : Type*} (s : Finset ι) (f : ι → EReal) (h : ∀ i ∈ s, IsReal (f i)) : IsReal (∑ i ∈ s, f i) :=
  Finset.sum_induction f IsReal (fun _ _ => IsReal.add) IsReal.zero h

/-- The logistic function of a real number is a real number. -/
theorem IsReal.logistic {a : EReal} (ha : IsReal a) : IsReal (Ideal.logistic a) := by
  obtain ⟨r, rfl⟩ := ha; exact ⟨_, Ideal.logistic_coe r⟩

/-- A real factor times a finite sum of real numbers is the sum of the products. -/
theorem mul_sum_of_real {ι : Type*} (s : Finset ι) (g : EReal) (a : ι → EReal) (hg : IsReal g)
    (ha : ∀ i ∈ s, IsReal (a i)) : g * ∑ i ∈ s, a i = ∑ i ∈ s, g * a i := by
  classical
  obtain ⟨r, rfl⟩ := hg
  revert ha
  refine Finset.induction_on s ?_ ?_
  · intro _; simp
  · intro i s hi ih ha
    rw [Finset.sum_insert hi, Finset.sum_insert hi, ← ih (fun j hj => ha j (Finset.mem_insert_of_mem hj))]
    obtain ⟨x, hx⟩ := ha i (Finset.mem_insert_self i s)
    obtain ⟨y, hy⟩ := IsReal.sum s a (fun j hj => ha j (Finset.mem_insert_of_mem hj))
    rw [hx, hy, ← EReal.coe_add, ← EReal.coe_mul, ← EReal.coe_mul, ← EReal.coe_mul, ← EReal.coe_add, mul_add]

/-- Adding real updates into a real array leaves every element real: the element plus a finite sum of updates. -/
theorem scatterAdd_real {s si su : Shape} {w : Nat} (d : ScatterDims s si su) (x : FVec Ideal s .f32) (idx : IVec si w)
    (upd : FVec Ideal su .f32) (hx : ∀ i, IsReal (x i)) (hu : ∀ j, IsReal (upd j)) :
    ∀ i, IsReal (Host.scatterAdd d x idx upd i) := by
  intro i
  show IsReal (Ideal.hostScatterAdd d x idx upd i)
  unfold Ideal.hostScatterAdd
  exact IsReal.add (hx i) (IsReal.sum _ _ fun j _ => hu j)

/-- The rank-zero shape has one index. -/
instance scalarIdx_subsingleton : Subsingleton (⟨0, ![]⟩ : Shape).Idx := ⟨fun a b => funext fun d => d.elim0⟩

/-- An extended real whose absolute value, the larger of it and its negation, is below plus infinity is a real number. -/
theorem isReal_of_abs_lt_top (x : EReal) (h : max x (-x) < ⊤) : IsReal x := by
  induction x using EReal.rec with
  | bot => simp at h
  | coe r => exact ⟨r, rfl⟩
  | top => simp at h

/-- The pattern 0x7F800000 of the 32-bit format is plus infinity. -/
theorem ofBits_inf : Ideal.ofBits .f32 0x7F800000#32 = ⊤ := by simp [Ideal.ofBits, Ideal.ieee]

/-- One element of the comparison of the absolute values against a splat of plus infinity being 1 says the
    element is a real number. -/
theorem elem_real {s : Shape} (hb : (⟨0, ![]⟩ : Shape).BroadcastsInDim s (![] : Fin 0 → Fin s.rank))
    (a : FVec Ideal s .f32) (i : s.Idx)
    (h : cmpf .olt (Host.absf a) (broadcastInDim s ![] hb (constant (⟨0, ![]⟩ : Shape) .f32 0x7F800000#32)) i = 1#1) :
    IsReal (a i) := by
  have h' : Ideal.cmp .olt (max (a i) (-(a i))) (Ideal.ofBits .f32 0x7F800000#32) = 1#1 := h
  rw [ofBits_inf] at h'
  unfold Ideal.cmp at h'
  refine isReal_of_abs_lt_top (a i) ?_
  by_contra hn
  simp [hn] at h'

end Cert.LibReal

end
-- ==== Proof.Finite.lean ====
/-
  Under the precondition every entry of every input is a real number.

  The precondition is the conjunction, over the nine inputs, of "every entry's absolute value is below plus infinity". A
  conjunction of bits is one exactly when each bit is one; an all-reduction by `and` that is one had a one at every index;
  and an extended real whose absolute value is below plus infinity is neither infinity, so it is a real.
-/
import proofs.«141790_j37898791420154_2_alg».proof.Pre_finite_inputs
import proofs.«141790_j37898791420154_2_alg».proof.Proof.LibReal
import Idealize.ShloMosaic.Lib.ReduceAll
import Idealize.ShloMosaic.Lib.Affine
import Idealize.ShloMosaic.Lib.ValueIdx

noncomputable section

namespace Cert.Attn

open Idealize.ShloMosaic Cert.LibReal Cert.Pre_finite_inputs

/-- The precondition holding makes every entry of each of the nine inputs a real number. -/
theorem reals_of_pre [Cert.Pre_finite_inputs.Facts] (a0 : FVec Ideal S8x2048x1024 .f32) (a1 : FVec Ideal S8x2048x1024 .f32) (a2 : FVec Ideal S8x2048x1024 .f32) (a3 : FVec Ideal S1024x64 .f32) (a4 : FVec Ideal S64 .f32) (a5 : FVec Ideal S1024x64 .f32) (a6 : FVec Ideal S64 .f32) (a7 : FVec Ideal S1024x64 .f32) (a8 : FVec Ideal S64 .f32)
    (h : Cert.Pre_finite_inputs.fn (F := Ideal) a0 a1 a2 a3 a4 a5 a6 a7 a8 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) := by
  have h0 := congrFun h ValueIdx.ix0
  dsimp only [Cert.Pre_finite_inputs.fn, Cert.Pre_finite_inputs.fn_part1, Cert.Pre_finite_inputs.fn_part2] at h0
  obtain ⟨h0, e8⟩ := IntOp.andi_eq_one.mp h0
  obtain ⟨h0, e7⟩ := IntOp.andi_eq_one.mp h0
  obtain ⟨h0, e6⟩ := IntOp.andi_eq_one.mp h0
  obtain ⟨h0, e5⟩ := IntOp.andi_eq_one.mp h0
  obtain ⟨h0, e4⟩ := IntOp.andi_eq_one.mp h0
  obtain ⟨h0, e3⟩ := IntOp.andi_eq_one.mp h0
  obtain ⟨h0, e2⟩ := IntOp.andi_eq_one.mp h0
  obtain ⟨e0, e1⟩ := IntOp.andi_eq_one.mp h0
  exact ⟨fun i => elem_real _ a0 i (Host.reduce_andi_all _ _ _ _ _ e0 i),
    fun i => elem_real _ a1 i (Host.reduce_andi_all _ _ _ _ _ e1 i),
    fun i => elem_real _ a2 i (Host.reduce_andi_all _ _ _ _ _ e2 i),
    fun i => elem_real _ a3 i (Host.reduce_andi_all _ _ _ _ _ e3 i),
    fun i => elem_real _ a4 i (Host.reduce_andi_all _ _ _ _ _ e4 i),
    fun i => elem_real _ a5 i (Host.reduce_andi_all _ _ _ _ _ e5 i),
    fun i => elem_real _ a6 i (Host.reduce_andi_all _ _ _ _ _ e6 i),
    fun i => elem_real _ a7 i (Host.reduce_andi_all _ _ _ _ _ e7 i),
    fun i => elem_real _ a8 i (Host.reduce_andi_all _ _ _ _ _ e8 i)⟩

end Cert.Attn

end
-- ==== Proof.LibRealOps.lean ====
/-
  More closure properties of the real numbers among the extended reals.

  A real number is an extended real other than the two infinities. Besides the sum, the product and finite sums, the
  real numbers are closed under the difference, the negation, the larger and the smaller of two, the exponential, the
  quotient by a nonzero real, and the reciprocal square root of a positive real: on real arguments each of these
  operations on the extended reals is the real operation, coerced.
-/
import proofs.«141790_j37898791420154_2_alg».proof.Proof.LibReal

noncomputable section

open scoped BigOperators

namespace Cert.LibRealOps

open Idealize.ShloMosaic Cert.LibReal

/-- 1 is a real number. -/
theorem IsReal.one : IsReal 1 := ⟨1, EReal.coe_one.symm⟩

/-- A real number is not plus infinity. -/
theorem IsReal.ne_top {a : EReal} (ha : IsReal a) : a ≠ ⊤ := by
  obtain ⟨r, rfl⟩ := ha; exact EReal.coe_ne_top r

/-- A real number is not minus infinity. -/
theorem IsReal.ne_bot {a : EReal} (ha : IsReal a) : a ≠ ⊥ := by
  obtain ⟨r, rfl⟩ := ha; exact EReal.coe_ne_bot r

/-- An extended real that is neither infinity is a real number. -/
theorem IsReal.of_ne {a : EReal} (ht : a ≠ ⊤) (hb : a ≠ ⊥) : IsReal a := by
  induction a using EReal.rec with
  | bot => exact absurd rfl hb
  | coe r => exact ⟨r, rfl⟩
  | top => exact absurd rfl ht

/-- The negation of a real number is a real number. -/
theorem IsReal.neg {a : EReal} (ha : IsReal a) : IsReal (-a) := by
  obtain ⟨r, rfl⟩ := ha; exact ⟨-r, (EReal.coe_neg r).symm⟩

/-- The difference of two real numbers is a real number. -/
theorem IsReal.sub {a b : EReal} (ha : IsReal a) (hb : IsReal b) : IsReal (a - b) := by
  obtain ⟨r, rfl⟩ := ha; obtain ⟨s, rfl⟩ := hb; exact ⟨r - s, (EReal.coe_sub r s).symm⟩

/-- The larger of two real numbers is a real number. -/
theorem IsReal.max {a b : EReal} (ha : IsReal a) (hb : IsReal b) : IsReal (max a b) := by
  obtain ⟨r, rfl⟩ := ha; obtain ⟨s, rfl⟩ := hb
  exact ⟨Max.max r s, (EReal.coe_strictMono.monotone.map_max).symm⟩

/-- The smaller of two real numbers is a real number. -/
theorem IsReal.min {a b : EReal} (ha : IsReal a) (hb : IsReal b) : IsReal (min a b) := by
  obtain ⟨r, rfl⟩ := ha; obtain ⟨s, rfl⟩ := hb
  exact ⟨Min.min r s, (EReal.coe_strictMono.monotone.map_min).symm⟩

/-- The exponential of a real number is a real number. -/
theorem IsReal.exp {a : EReal} (ha : IsReal a) : IsReal (Ideal.exp a) := by
  obtain ⟨r, rfl⟩ := ha; exact ⟨Real.exp r, Ideal.exp_coe r⟩

/-- The quotient of a real number by a nonzero real is a real number. -/
theorem IsReal.div_coe {a : EReal} (ha : IsReal a) {N : ℝ} (hN : N ≠ 0) : IsReal (Ideal.div a (N : EReal)) := by
  obtain ⟨r, rfl⟩ := ha
  exact ⟨r * (1 / N), by rw [Ideal.div_coe hN, EReal.coe_mul]⟩

/-- The quotient of a real number by a nonzero real number is a real number. -/
theorem IsReal.div {a b : EReal} (ha : IsReal a) (hb : IsReal b) (hb0 : b ≠ 0) : IsReal (Ideal.div a b) := by
  obtain ⟨s, rfl⟩ := hb
  exact IsReal.div_coe ha (fun h => hb0 (by rw [h, EReal.coe_zero]))

/-- The reciprocal square root of a positive real is a real number. -/
theorem IsReal.rsqrt_coe {r : ℝ} (hr : 0 < r) : IsReal (Ideal.rsqrt (r : EReal)) :=
  ⟨(Real.sqrt r)⁻¹, by rw [Ideal.rsqrt_coe, if_neg (not_lt.mpr hr.le), if_neg hr.ne']⟩

/-- A sum of real numbers over a whole finite index type is a real number. -/
theorem IsReal.sum_univ {ι : Type*} [Fintype ι] (f : ι → EReal) (h : ∀ i, IsReal (f i)) : IsReal (∑ i, f i) :=
  IsReal.sum Finset.univ f (fun i _ => h i)

end Cert.LibRealOps

end
-- ==== Proof.LibERealFactor.lean ====
/-
  A general lemma file: moving a factor across a finite sum of EXTENDED reals without knowing the summands are real.

  On the extended reals `(a + b) · v = a · v + b · v` fails in general (`(⊤ + ⊥) · v`), and the usual road to
  distributivity goes through the reals, which asks every summand to be finite. When the FACTOR is nonnegative and
  finite the law holds for arbitrary summands, hence for any finite sum (`sum_mul_nonneg`, `mul_sum_nonneg`). Such a
  factor is, for instance, an inverse square root of a positive extended real (`rsqrt_nonneg_fin`: `1/√x` for a
  positive real, `0` at `+∞`), the degree normalisation of a graph convolution.
-/
import Idealize.ShloMosaic.PureOps.Ideal

noncomputable section

open scoped BigOperators

namespace Cert.LibERealFactor

open Idealize.ShloMosaic

/-- A nonnegative finite factor on the right moves across a finite sum of extended reals, whatever the summands. -/
theorem sum_mul_nonneg {ι : Type*} (s : Finset ι) (f : ι → EReal) (v : EReal) (h0 : 0 ≤ v) (ht : v ≠ ⊤) :
    (∑ e ∈ s, f e) * v = ∑ e ∈ s, f e * v := by
  classical
  induction s using Finset.induction_on with
  | empty => simp
  | insert a s ha ih =>
    rw [Finset.sum_insert ha, Finset.sum_insert ha, ← ih]
    exact EReal.right_distrib_of_nonneg_of_ne_top h0 ht _ _

/-- The same with the factor on the left. -/
theorem mul_sum_nonneg {ι : Type*} (s : Finset ι) (f : ι → EReal) (v : EReal) (h0 : 0 ≤ v) (ht : v ≠ ⊤) :
    v * ∑ e ∈ s, f e = ∑ e ∈ s, v * f e := by
  rw [mul_comm, sum_mul_nonneg s f v h0 ht]
  exact Finset.sum_congr rfl fun e _ => mul_comm _ _

/-- The inverse square root of a positive extended real is nonnegative and finite (`0` at `+∞`). -/
theorem rsqrt_nonneg_fin (x : EReal) (hx : 0 < x) : 0 ≤ Ideal.rsqrt x ∧ Ideal.rsqrt x ≠ ⊤ := by
  induction x using EReal.rec with
  | bot => exact absurd hx (by simp)
  | top => exact ⟨le_refl _, by simp⟩
  | coe r =>
    have hr : 0 < r := by exact_mod_cast hx
    rw [Ideal.rsqrt_coe, if_neg (not_lt.mpr hr.le), if_neg hr.ne']
    exact ⟨by exact_mod_cast (inv_nonneg.mpr (Real.sqrt_nonneg r)), EReal.coe_ne_top _⟩

end Cert.LibERealFactor

end
-- ==== Proof.LibSoftmaxShift.lean ====
/-
  Softmax with and without the row maximum subtracted, on the extended reals.

  A reference computes softmax as exp(x - m) / Σ exp(x_k - m) with m the row maximum (for range reasons that vanish
  with exact arithmetic); a kernel may compute exp(x) / Σ exp(x_k) directly. For REAL logits and a real shift m the two
  agree, because exp(x - m) = exp(x) · exp(-m) and the positive real factor exp(-m) cancels. At an infinite logit the
  two expressions differ, so the hypothesis that every logit is a real number is needed.
-/
import Idealize.ShloMosaic.PureOps.Ideal

noncomputable section

namespace Cert.LibSoftmaxShift

open Idealize.ShloMosaic

/-- The coercion of a finite real sum is the sum of the coercions. -/
theorem coe_sum {ι : Type*} [Fintype ι] (f : ι → ℝ) : ((∑ k, f k : ℝ) : EReal) = ∑ k, (f k : EReal) := by
  classical
  refine Finset.induction_on (Finset.univ : Finset ι) (by simp) ?_
  intro a s ha ih
  rw [Finset.sum_insert ha, Finset.sum_insert ha, EReal.coe_add, ih]

/-- The exponential of a real number minus a real number, computed on the extended reals, is the real exponential of
    the difference. -/
theorem exp_sub_coe (a m : ℝ) : Ideal.exp ((a : EReal) - (m : EReal)) = ((Real.exp (a - m) : ℝ) : EReal) := by
  rw [← EReal.coe_sub]; rfl

/-- The sum of the exponentials of finitely many reals, over a nonempty index type, is a positive real. -/
theorem sum_exp_pos {ι : Type*} [Fintype ι] [Nonempty ι] (x : ι → ℝ) : 0 < ∑ k, Real.exp (x k) :=
  Finset.sum_pos (fun k _ => Real.exp_pos (x k)) Finset.univ_nonempty

/-- A quotient of the exponential of a real by a sum of exponentials of reals is the real quotient. -/
theorem div_exp_sum {ι : Type*} [Fintype ι] [Nonempty ι] (x : ι → ℝ) (j : ι) :
    Ideal.div (Ideal.exp (x j : EReal)) (∑ k, Ideal.exp (x k : EReal))
      = ((Real.exp (x j) / ∑ k, Real.exp (x k) : ℝ) : EReal) := by
  have hs : (∑ k, Ideal.exp (x k : EReal)) = ((∑ k, Real.exp (x k) : ℝ) : EReal) := by
    rw [coe_sum]; rfl
  rw [hs, Ideal.div_coe (ne_of_gt (sum_exp_pos x))]
  show ((Real.exp (x j) : ℝ) : EReal) * _ = _
  rw [← EReal.coe_mul, mul_one_div]

/-- SHIFT INVARIANCE. For real logits `x` over a nonempty finite index type and a real shift `m`, the softmax
    computed from the shifted logits is the softmax computed from the logits themselves. -/
theorem softmax_shift {ι : Type*} [Fintype ι] [Nonempty ι] (x : ι → ℝ) (m : ℝ) (j : ι) :
    Ideal.div (Ideal.exp ((x j : EReal) - (m : EReal))) (∑ k, Ideal.exp ((x k : EReal) - (m : EReal)))
      = Ideal.div (Ideal.exp (x j : EReal)) (∑ k, Ideal.exp (x k : EReal)) := by
  have h1 : ∀ k, Ideal.exp ((x k : EReal) - (m : EReal)) = Ideal.exp (((x k - m : ℝ)) : EReal) := fun k => by
    rw [← EReal.coe_sub]
  simp only [h1]
  rw [div_exp_sum (fun k => x k - m) j, div_exp_sum x j]
  congr 1
  simp only [Real.exp_sub]
  rw [← Finset.sum_div, div_div_div_cancel_right₀ (ne_of_gt (Real.exp_pos m))]

/-- The same for extended reals known to be real: every logit `z k` and the shift `μ` a real number. -/
theorem softmax_shift_of_real {ι : Type*} [Fintype ι] [Nonempty ι] (z : ι → EReal) (hz : ∀ k, ∃ r : ℝ, z k = r)
    (μ : EReal) (hμ : ∃ r : ℝ, μ = r) (j : ι) :
    Ideal.div (Ideal.exp (z j - μ)) (∑ k, Ideal.exp (z k - μ)) = Ideal.div (Ideal.exp (z j)) (∑ k, Ideal.exp (z k)) := by
  choose x hx using hz
  obtain ⟨m, rfl⟩ := hμ
  simp only [hx]
  exact softmax_shift x m j

/-- The maximum of finitely many reals over a nonempty index type — as the supremum on the extended reals, which is
    what a fold of `max` from minus infinity computes — is one of them, hence a real number. -/
theorem sup_real {ι : Type*} [Fintype ι] [Nonempty ι] (z : ι → EReal) (hz : ∀ k, ∃ r : ℝ, z k = r) :
    ∃ r : ℝ, Finset.univ.sup z = r := by
  obtain ⟨i, _, hi⟩ := Finset.exists_mem_eq_sup Finset.univ Finset.univ_nonempty z
  obtain ⟨r, hr⟩ := hz i
  exact ⟨r, hi.trans hr⟩

/-- The softmax of real logits is a real number in every entry. -/
theorem softmax_real {ι : Type*} [Fintype ι] [Nonempty ι] (z : ι → EReal) (hz : ∀ k, ∃ r : ℝ, z k = r) (j : ι) :
    ∃ r : ℝ, Ideal.div (Ideal.exp (z j)) (∑ k, Ideal.exp (z k)) = r := by
  choose x hx using hz
  simp only [hx]
  exact ⟨_, div_exp_sum x j⟩

end Cert.LibSoftmaxShift

end
-- ==== Proof.LibColumnWeights.lean ====
/-
  Weights normalised by COLUMN: a general law on the extended reals, no program in sight. (A softmax taken over the
  query axis of attention scores is such a normalisation; the mean over queries of the attention output then no longer
  depends on the scores at all.)

  Take positive real numbers e(q, k) over two finite index types, the first nonempty, and normalise each COLUMN k:
  w(q, k) = e(q, k) / Σ_q' e(q', k). Every column of w sums to one over q. Hence, for real numbers x(k),

      Σ_q Σ_k w(q, k) · x(k)  =  Σ_k x(k) · (Σ_q w(q, k))  =  Σ_k x(k).

  On the extended reals the step that moves x(k) out of the sum over q is distributivity, which fails at the
  infinities; so the statement asks every e(q, k) to be a positive real and every x(k) to be a real, and the proof
  carries the whole computation over to the real numbers, where it is the exchange of the two sums and
  (Σ_q e(q, k)) / (Σ_q e(q, k)) = 1.

  Also here: the exponential of a real number is a positive real, and the maximum of finitely many reals, taken as a
  fold of max from minus infinity, is a real number.
-/
import Idealize.ShloMosaic.PureOps.Ideal
import proofs.«141790_j37898791420154_2_alg».proof.Proof.LibReal
import proofs.«141790_j37898791420154_2_alg».proof.Proof.LibSoftmaxShift

noncomputable section

open scoped BigOperators

namespace Cert.LibColumnWeights

open Idealize.ShloMosaic Cert.LibReal Cert.LibSoftmaxShift

/-- A double sum of coerced reals is the coercion of the real double sum. -/
theorem coe_sum_sum {Q K : Type*} [Fintype Q] [Fintype K] (g : Q → K → ℝ) :
    ∑ q, ∑ k, ((g q k : ℝ) : EReal) = ((∑ q, ∑ k, g q k : ℝ) : EReal) := by
  rw [coe_sum]
  exact Finset.sum_congr rfl fun q _ => (coe_sum (g q)).symm

/-- Over the reals: weights normalised along q sum to one along q, so the weighted double sum is the plain sum. -/
theorem real_collapse {Q K : Type*} [Fintype Q] [Fintype K] (e : Q → K → ℝ) (x : K → ℝ)
    (hS : ∀ k, 0 < ∑ q, e q k) :
    ∑ q, ∑ k, e q k / (∑ q', e q' k) * x k = ∑ k, x k := by
  rw [Finset.sum_comm]
  refine Finset.sum_congr rfl fun k _ => ?_
  rw [← Finset.sum_mul, ← Finset.sum_div, div_self (ne_of_gt (hS k)), one_mul]

/-- THE LAW on the extended reals: positive real e(q, k), real x(k), q ranging over a nonempty finite type. -/
theorem collapse {Q K : Type*} [Fintype Q] [Fintype K] [Nonempty Q] (e : Q → K → EReal) (x : K → EReal)
    (he : ∀ q k, ∃ r : ℝ, 0 < r ∧ e q k = (r : EReal)) (hx : ∀ k, IsReal (x k)) :
    ∑ q, ∑ k, Ideal.div (e q k) (∑ q', e q' k) * x k = ∑ k, x k := by
  choose er her using he
  choose xr hxr using hx
  have hpos : ∀ k, 0 < ∑ q, er q k := fun k =>
    Finset.sum_pos (fun q _ => (her q k).1) Finset.univ_nonempty
  have hS : ∀ k, (∑ q', e q' k) = ((∑ q', er q' k : ℝ) : EReal) := fun k => by
    rw [coe_sum]; exact Finset.sum_congr rfl fun q _ => (her q k).2
  have hterm : ∀ q k, Ideal.div (e q k) (∑ q', e q' k) * x k
      = ((er q k / (∑ q', er q' k) * xr k : ℝ) : EReal) := fun q k => by
    rw [hS k, Ideal.div_coe (ne_of_gt (hpos k)), (her q k).2, hxr k, ← EReal.coe_mul, ← EReal.coe_mul, mul_one_div]
  have hl : ∑ q, ∑ k, Ideal.div (e q k) (∑ q', e q' k) * x k
      = ∑ q, ∑ k, ((er q k / (∑ q', er q' k) * xr k : ℝ) : EReal) :=
    Finset.sum_congr rfl fun q _ => Finset.sum_congr rfl fun k _ => hterm q k
  have hr : ∑ k, x k = ((∑ k, xr k : ℝ) : EReal) := by
    rw [coe_sum]; exact Finset.sum_congr rfl fun k _ => hxr k
  rw [hl, hr, coe_sum_sum, real_collapse er xr hpos]

/-- The exponential of a real number is a positive real. -/
theorem exp_pos_real {a : EReal} (ha : IsReal a) : ∃ r : ℝ, 0 < r ∧ Ideal.exp a = (r : EReal) := by
  obtain ⟨r, rfl⟩ := ha
  exact ⟨Real.exp r, Real.exp_pos r, rfl⟩

/-- The fold of max from minus infinity over finitely many reals, at least one, is a real number: it is their
    supremum, which one of them attains. -/
theorem fold_max_real {ι : Type*} [Fintype ι] [Nonempty ι] (z : ι → EReal) (hz : ∀ k, IsReal (z k)) :
    IsReal ((Finset.univ : Finset ι).fold max (⊥ : EReal) z) :=
  sup_real z hz

end Cert.LibColumnWeights

end
-- ==== Proof.LibDeferredNorm.lean ====
/-
  Softmax attention with the normalisation deferred past the weighted sum.

  For real logits `z` and a real shift `μ` the weights `exp(z t − μ)` are positive reals and so is their total `L`.
  Dividing an extended real by `L` is multiplying it by the nonnegative finite `1/L`, and such a factor moves across a
  finite sum of extended reals whatever the summands. Hence `(Σ_t exp(z t − μ) · v t) / L = Σ_t (exp(z t − μ) / L) · v t`
  for arbitrary extended-real values `v`: dividing the accumulated `p · v` by the row total (a kernel that normalises
  once per output row) is summing under the normalised weights (`softmax(z) · v`). The shift is usually the row
  maximum, a fold of `max` from the bottom element; `scale_by_eighth` is the companion fact that multiplying by the
  float 0.125 is dividing by the square root of the float 64 (a head dimension of 64), on every extended real.
-/
import Idealize.ShloMosaic.PureOps.Ideal
import proofs.«141790_j37898791420154_2_alg».proof.Proof.LibReal
import proofs.«141790_j37898791420154_2_alg».proof.Proof.LibRealOps
import proofs.«141790_j37898791420154_2_alg».proof.Proof.LibERealFactor
import proofs.«141790_j37898791420154_2_alg».proof.Proof.LibSoftmaxShift
import proofs.«141790_j37898791420154_2_alg».proof.Proof.LibColumnWeights

noncomputable section

open scoped BigOperators

namespace Cert.LibDeferredNorm

open Idealize.ShloMosaic Cert.LibReal Cert.LibRealOps

/-- With real logits and a real shift, the weighted sum divided by the weights' total is the sum under the weights each
    divided by the total; nothing is asked of the values `v`. -/
theorem sum_div_total {ι : Type*} [Fintype ι] [Nonempty ι] (z v : ι → EReal) (μ : EReal)
    (hz : ∀ t, IsReal (z t)) (hμ : IsReal μ) :
    Ideal.div (∑ t, Ideal.exp (z t - μ) * v t) (∑ t, Ideal.exp (z t - μ))
      = ∑ t, Ideal.div (Ideal.exp (z t - μ)) (∑ u, Ideal.exp (z u - μ)) * v t := by
  have hp : ∀ t, ∃ r : ℝ, 0 < r ∧ Ideal.exp (z t - μ) = (r : EReal) :=
    fun t => Cert.LibColumnWeights.exp_pos_real (IsReal.sub (hz t) hμ)
  choose r hr0 hr using hp
  simp only [hr]
  have hL : 0 < ∑ t, r t := Finset.sum_pos (fun t _ => hr0 t) Finset.univ_nonempty
  rw [← Cert.LibSoftmaxShift.coe_sum r]
  simp only [Ideal.div_coe hL.ne']
  rw [Cert.LibERealFactor.sum_mul_nonneg _ _ _ (EReal.coe_nonneg.mpr (by positivity)) (EReal.coe_ne_top _)]
  exact Finset.sum_congr rfl fun t _ => mul_right_comm _ _ _

/-- The same with the shift the row maximum (the fold of `max` from the bottom element), which is real for real logits. -/
theorem sum_div_total_max {ι : Type*} [Fintype ι] [Nonempty ι] (z v : ι → EReal) (hz : ∀ t, IsReal (z t)) :
    Ideal.div (∑ t, Ideal.exp (z t - (Finset.univ : Finset ι).fold max (⊥ : EReal) z) * v t)
        (∑ t, Ideal.exp (z t - (Finset.univ : Finset ι).fold max (⊥ : EReal) z))
      = ∑ t, Ideal.div (Ideal.exp (z t - (Finset.univ : Finset ι).fold max (⊥ : EReal) z))
          (∑ u, Ideal.exp (z u - (Finset.univ : Finset ι).fold max (⊥ : EReal) z)) * v t :=
  sum_div_total z v _ hz (Cert.LibColumnWeights.fold_max_real z hz)

/-- The float `0.125` denotes the real 1/8. -/
theorem ofBits_eighth : Ideal.ofBits .f32 0x3E000000#32 = ((1 / 8 : ℝ) : EReal) := by
  simp [Ideal.ofBits, Ideal.ieee, -EReal.coe_mul]; norm_num

/-- The float `64.0` denotes the real 64. -/
theorem ofBits_sixtyFour : Ideal.ofBits .f32 0x42800000#32 = ((64 : ℝ) : EReal) := by
  simp [Ideal.ofBits, Ideal.ieee, -EReal.coe_mul]; norm_num

/-- The square root of the real 64 is the real 8. -/
theorem sqrt_sixtyFour : Ideal.sqrt ((64 : ℝ) : EReal) = ((8 : ℝ) : EReal) := by
  show (if (64 : ℝ) < 0 then (⊥ : EReal) else (Real.sqrt 64 : EReal)) = _
  rw [if_neg (by norm_num)]
  congr 1
  rw [show (64 : ℝ) = 8 ^ 2 by norm_num, Real.sqrt_sq (by norm_num)]

/-- Multiplying by the float `0.125` is dividing by the square root of the float `64`, on every extended real. -/
theorem scale_by_eighth (x : EReal) :
    x * Ideal.ofBits .f32 0x3E000000#32 = Ideal.div x (Ideal.sqrt (Ideal.ofBits .f32 0x42800000#32)) := by
  rw [ofBits_eighth, ofBits_sixtyFour, sqrt_sixtyFour, Ideal.div_coe (by norm_num : (8 : ℝ) ≠ 0)]

end Cert.LibDeferredNorm

end
-- ==== Proof.Law.lean ====
/-
  The two ways of writing the head's output agree when every raw score is a real number.

  Scaling: the float `0.125` is the real 1/8 and the float `64` the real 64, whose square root is 8; dividing an extended
  real by the real 8 is multiplying it by 1/8, whatever the extended real.

  Normalising: with real scores `z` the maximum `μ` is real, every weight `exp(z t − μ)` is a positive real, and so is
  their total `L`. Dividing by `L` is multiplying by the nonnegative finite `1/L`, and a nonnegative finite factor moves
  across a finite sum of extended reals whatever the summands: `(Σ p·v)·(1/L) = Σ (p·v)·(1/L) = Σ (p·(1/L))·v`. Nothing
  is asked of the values `v`. Both facts are stated once, for any finite index type, in the general module; here they are
  read at this head's row of 2048 scores.
-/
import proofs.«141790_j37898791420154_2_alg».proof.Proof.Spec
import proofs.«141790_j37898791420154_2_alg».proof.Proof.LibReal
import proofs.«141790_j37898791420154_2_alg».proof.Proof.LibRealOps
import proofs.«141790_j37898791420154_2_alg».proof.Proof.LibDeferredNorm

noncomputable section

open scoped BigOperators

namespace Cert.Attn

open Idealize.ShloMosaic Idealize.ShloMosaic.ValueIdx Cert.LibReal Cert.LibRealOps

/-- The float pattern of minus infinity denotes the bottom element. -/
theorem ofBits_negInf : Ideal.ofBits .f32 0xFF800000#32 = (⊥ : EReal) := by
  simp [Ideal.ofBits, Ideal.ieee]

/-- The float `+0.0` denotes zero. -/
theorem ofBits_zero : Ideal.ofBits .f32 0x00000000#32 = (0 : EReal) := by
  simp [Ideal.ofBits, Ideal.ieee]

/-- Multiplying by the float `0.125` is dividing by the square root of the float `64`, on every extended real. -/
theorem scale_eq (x : EReal) :
    x * Ideal.ofBits .f32 0x3E000000#32 = Ideal.div x (Ideal.sqrt (Ideal.ofBits .f32 0x42800000#32)) :=
  Cert.LibDeferredNorm.scale_by_eighth x

/-- With real scores, dividing the weighted sum by the weights' total is summing under the normalised weights. -/
theorem sumThenNormalise_eq {n : ℕ} [Nonempty (Fin n)] (z v : Fin n → EReal) (hz : ∀ t, IsReal (z t)) :
    sumThenNormalise z v = normaliseThenSum z v := by
  unfold sumThenNormalise normaliseThenSum rowMax
  exact Cert.LibDeferredNorm.sum_div_total_max z v hz

/-- The two ways of writing the head's output agree wherever the raw scores of the row are real. -/
theorem scaledSumFirst_eq (q k v : HS.Idx → EReal) (i : HS.Idx) (hs : ∀ t, IsReal (qk q k (i 0) (i 1) t)) :
    scaledSumFirst q k v i = dividedWeightsFirst q k v i := by
  unfold scaledSumFirst dividedWeightsFirst
  simp only [scale_eq]
  refine sumThenNormalise_eq _ _ fun t => ?_
  rw [← scale_eq, Cert.LibDeferredNorm.ofBits_eighth]
  exact IsReal.mul (hs t) (IsReal.coe _)

end Cert.Attn

end
-- ==== Proof.Reals.lean ====
/-
  With real inputs the projections are real, so are the raw scores, and the two ways of writing the head's output agree.

  A projection entry is a finite sum of products of reals plus a real; a raw score is a finite sum of products of two
  projection entries. Only the query and key projections matter here: nothing is asked of the values.
-/
import proofs.«141790_j37898791420154_2_alg».proof.Proof.Law

noncomputable section

open scoped BigOperators

namespace Cert.Attn

open Idealize.ShloMosaic Idealize.ShloMosaic.ValueIdx Cert.LibReal Cert.LibRealOps

/-- A projection of real inputs by real weights with a real bias has real entries. -/
theorem proj_real (x : XS.Idx → EReal) (w : WS.Idx → EReal) (β : BS.Idx → EReal)
    (hx : ∀ i, IsReal (x i)) (hw : ∀ i, IsReal (w i)) (hβ : ∀ i, IsReal (β i)) (i : HS.Idx) : IsReal (proj x w β i) :=
  IsReal.add (IsReal.sum_univ _ fun e => IsReal.mul (hx _) (hw _)) (hβ _)

/-- The raw score of two rows with real entries is real. -/
theorem qk_real (q k : HS.Idx → EReal) (hq : ∀ i, IsReal (q i)) (hk : ∀ i, IsReal (k i)) (b : Fin 8) (s t : Fin 2048) :
    IsReal (qk q k b s t) :=
  IsReal.sum_univ _ fun h => IsReal.mul (hq _) (hk _)

/-- With real query and key inputs the two ways of writing the head's output are one function. -/
theorem outputs_agree (x0 x1 x2 : XS.Idx → EReal) (w3 w5 w7 : WS.Idx → EReal) (b4 b6 b8 : BS.Idx → EReal)
    (h0 : ∀ i, IsReal (x0 i)) (h1 : ∀ i, IsReal (x1 i)) (h3 : ∀ i, IsReal (w3 i)) (h4 : ∀ i, IsReal (b4 i))
    (h5 : ∀ i, IsReal (w5 i)) (h6 : ∀ i, IsReal (b6 i)) :
    scaledSumFirst (proj x0 w3 b4) (proj x1 w5 b6) (proj x2 w7 b8)
      = dividedWeightsFirst (proj x0 w3 b4) (proj x1 w5 b6) (proj x2 w7 b8) :=
  funext fun i => scaledSumFirst_eq _ _ _ i fun t =>
    qk_real _ _ (proj_real x0 w3 b4 h0 h3 h4) (proj_real x1 w5 b6 h1 h5 h6) (i 0) (i 1) t

end Cert.Attn

end
-- ==== Proof.lean ====
/-
  One attention head, computed in two stages on the accelerator, against its plain reference: the claims.

  The reference projects the three inputs (`x · W + β`), scores every query position against every key position by the
  inner product of the projected rows divided by the square root of 64, turns each row of scores into softmax weights
  (the exponentials of the scores less the row maximum, each divided by their total) and sums the value rows under those
  weights. The kernel projects in a first grid of launches over the flattened rows, and in a second grid multiplies the raw
  scores by 0.125, forms the same exponentials, sums the value rows under them and divides the sum by their total.

  On the extended reals the two agree for finite inputs. The change of float format is the identity; flattening the batch
  and position axes commutes with the projection; multiplying by 0.125 is dividing by the square root of 64 on every
  extended real; and with real scores the total of the weights is a positive real, so dividing by it moves across the
  finite sum. Finiteness of the query and key inputs is what makes the scores real; nothing is asked of the values.

  The three frames are the generated ones (the reference's is its generated run with the result dropped); the
  idealization rewrote nothing, so its conjunct is trivial.
-/
import proofs.«141790_j37898791420154_2_alg».proof.Defs
import proofs.«141790_j37898791420154_2_alg».proof.Proof.Gen.Kernel
import proofs.«141790_j37898791420154_2_alg».proof.Proof.Gen.Kernel.Skeleton
import proofs.«141790_j37898791420154_2_alg».proof.Proof.Gen.Kernel.Launch
import proofs.«141790_j37898791420154_2_alg».proof.Proof.Gen.Kernel.Points
import proofs.«141790_j37898791420154_2_alg».proof.Proof.Gen.Kernel.Frame
import proofs.«141790_j37898791420154_2_alg».proof.Proof.Gen.KernelIdeal
import proofs.«141790_j37898791420154_2_alg».proof.Proof.Gen.KernelIdeal.Skeleton
import proofs.«141790_j37898791420154_2_alg».proof.Proof.Gen.KernelIdeal.Launch
import proofs.«141790_j37898791420154_2_alg».proof.Proof.Gen.KernelIdeal.Points
import proofs.«141790_j37898791420154_2_alg».proof.Proof.Gen.KernelIdeal.Frame
import proofs.«141790_j37898791420154_2_alg».proof.Proof.Gen.ReferenceIdeal
import proofs.«141790_j37898791420154_2_alg».proof.Proof.Gen.Pre_finite_inputs
import proofs.«141790_j37898791420154_2_alg».proof.Proof.Gen.ReferenceIdeal.Run
import proofs.«141790_j37898791420154_2_alg».proof.Proof.Gen.ReferenceIdeal.Read
import proofs.«141790_j37898791420154_2_alg».proof.Proof.KernelValue
import proofs.«141790_j37898791420154_2_alg».proof.Proof.ProjValue
import proofs.«141790_j37898791420154_2_alg».proof.Proof.AttnValue
import proofs.«141790_j37898791420154_2_alg».proof.Proof.RefValue
import proofs.«141790_j37898791420154_2_alg».proof.Proof.Finite
import proofs.«141790_j37898791420154_2_alg».proof.Proof.Reals
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the head's output of the three projections of the arguments: the kernel in the form that
    divides the weighted sum by the weights' total, the reference in the form that normalises the weights first; with
    finite inputs the raw scores are real and the two forms are one function. -/
theorem algebraic : Cert.algebraic_KernelIdeal_ReferenceIdeal := by
  intro m ρ m' ρ' hpre hagree
  refine ⟨fun c => Cert.Attn.scaledSumFirst
      (Cert.Attn.proj (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
      (Cert.Attn.proj (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
      (Cert.Attn.proj (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))), ?_, ?_⟩
  · refine (θ_run Cert.KernelIdeal.defs _ _).mono (fun r h c => ⟨(h c).1.trans ?_, (h c).2⟩)
      (Cert.KernelIdeal.RunValue.run (F := Ideal) m ρ)
    exact Cert.KernelIdeal.Whole.result_of m ρ c (Cert.KernelIdeal.ProjValue.arr9 _ c)
      (Cert.KernelIdeal.ProjValue.arr10 _ c) (Cert.KernelIdeal.ProjValue.arr11 _ c) (Cert.KernelIdeal.AttnValue.arr3 _ c)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v27_eq, Cert.Attn.Ref.ref_value]
    obtain ⟨a0, a1, a2, a3, a4, a5, a6, a7, a8⟩ := hagree c
    rw [a0, a1, a2, a3, a4, a5, a6, a7, a8]
    obtain ⟨r0, r1, -, r3, r4, r5, r6, -, -⟩ := Cert.Attn.reals_of_pre _ _ _ _ _ _ _ _ _ (hpre c)
    exact (Cert.Attn.outputs_agree _ _ _ _ _ _ _ _ _ r0 r1 r3 r4 r5 r6).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
